-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x2400 .f32
  ∧ IdealRules.sign_bit.Statement Cert.KernelIdeal.S128x2400 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2400x1 : Shape := ⟨3, ![2048, 2400, 1]⟩
abbrev S2048x15x16 : Shape := ⟨3, ![2048, 15, 16]⟩
abbrev S_ : Shape := ⟨0, ![]⟩

class Facts : Prop where
  bcast_S_S2048x2400x1 : S_.BroadcastsInDim S2048x2400x1 (![] : Fin 0 → Fin S2048x2400x1.rank)
  reducesTo_S2048x2400x1_S_d0_1_2 : S2048x2400x1.ReducesTo [0, 1, 2] S_
  h_S_ : 0 < S_.numel
  bcast_S_S2048x15x16 : S_.BroadcastsInDim S2048x15x16 (![] : Fin 0 → Fin S2048x15x16.rank)
  reducesTo_S2048x15x16_S_d0_1_2 : S2048x15x16.ReducesTo [0, 1, 2] S_

variable [Facts]

def fn {F : FTy → Type} [FloatOps F] (main_arg0 : FVec F S2048x2400x1 .f32) (main_arg1 : FVec F S2048x15x16 .f32) : IVec S_ 1 :=
  let main_v0 : FVec F S2048x2400x1 .f32 := Host.absf main_arg0
  let main_cst : FVec F S_ .f32 := constant S_ .f32 0x7F800000#32
  let main_v1 : FVec F S2048x2400x1 .f32 := broadcastInDim S2048x2400x1 ![] bcast_S_S2048x2400x1 main_cst
  let main_v2 : IVec S2048x2400x1 1 := cmpf .olt main_v0 main_v1
  let main_c : IVec S_ 1 := constantI S_ 1 1#1
  let main_v3 : IVec S_ 1 := (fun x v => Host.reduce IntOp.andi x v reducesTo_S2048x2400x1_S_d0_1_2 h_S_) main_v2 main_c
  let main_v4 : FVec F S2048x15x16 .f32 := Host.absf main_arg1
  let main_cst_0 : FVec F S_ .f32 := constant S_ .f32 0x7F800000#32
  let main_v5 : FVec F S2048x15x16 .f32 := broadcastInDim S2048x15x16 ![] bcast_S_S2048x15x16 main_cst_0
  let main_v6 : IVec S2048x15x16 1 := cmpf .olt main_v4 main_v5
  let main_c_1 : IVec S_ 1 := constantI S_ 1 1#1
  let main_v7 : IVec S_ 1 := (fun x v => Host.reduce IntOp.andi x v reducesTo_S2048x15x16_S_d0_1_2 h_S_) main_v6 main_c_1
  let main_v8 : IVec S_ 1 := andi main_v3 main_v7
  main_v8
-- ==== Kernel.lean ====
abbrev S2048x2400x1 : Shape := ⟨3, ![2048, 2400, 1]⟩
abbrev S2048x15x16 : Shape := ⟨3, ![2048, 15, 16]⟩
abbrev S2048x2400 : Shape := ⟨2, ![2048, 2400]⟩
abbrev S128x2400 : Shape := ⟨2, ![128, 2400]⟩
abbrev S128x15x16 : Shape := ⟨3, ![128, 15, 16]⟩
abbrev S128x160 : Shape := ⟨2, ![128, 160]⟩
abbrev S128x16 : Shape := ⟨2, ![128, 16]⟩
abbrev S128x176 : Shape := ⟨2, ![128, 176]⟩
abbrev S128x1x1 : Shape := ⟨3, ![128, 1, 1]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2400x1, .f32⟩
  | .hbm, ⟨1, _⟩ => ⟨S2048x15x16, .f32⟩
  | .hbm, ⟨2, _⟩ => ⟨S2048x2400, .f32⟩
  | .hbm, ⟨3, _⟩ => ⟨S2048x2400, .f32⟩
  | .hbm, ⟨4, _⟩ => ⟨S2048x2400x1, .f32⟩
  | .local _ .vmem, ⟨0, _⟩ => ⟨S128x2400, .f32⟩
  | .local _ .vmem, ⟨1, _⟩ => ⟨S128x2400, .f32⟩
  | .local _ .vmem, ⟨2, _⟩ => ⟨S128x15x16, .f32⟩
  | .local _ .vmem, ⟨3, _⟩ => ⟨S128x15x16, .f32⟩
  | .local _ .vmem, ⟨4, _⟩ => ⟨S128x2400, .f32⟩
  | .local _ .vmem, ⟨5, _⟩ => ⟨S128x2400, .f32⟩
  | .local _ .vmem, ⟨6, _⟩ => ⟨S128x2400, .f32⟩
  | .local _ .vmem, ⟨7, _⟩ => ⟨S128x2400, .f32⟩
  | _, _ => ⟨S2048x2400x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x15x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048x2400x1_S2048x2400 : S2048x2400x1.ShapeCasts S2048x2400
  inb_S128x2400_S128x2400_0_0 : ∀ a, (![0, 0] : Fin 2 → Nat) a + S128x2400.size a ≤ S128x2400.size a
  h_S128x2400 : 0 < S128x2400.numel
  shapeCasts_S128x2400_S128x2400 : S128x2400.ShapeCasts S128x2400
  inb_S128x15x16_S128x15x16_0_0_0 : ∀ a, (![0, 0, 0] : Fin 3 → Nat) a + S128x15x16.size a ≤ S128x15x16.size a
  h_S128x15x16 : 0 < S128x15x16.numel
  inb_S128x2400_S128x160_0_0 : ∀ a, (![0, 0] : Fin 2 → Nat) a + S128x160.size a ≤ S128x2400.size a
  h_S128x160 : 0 < S128x160.numel
  concatenates_S128x16_S128x160_S128x176_d1 : Shape.Concatenates [S128x16, S128x160] S128x176 1
  slices_S128x176_o0_16_S128x160 : S128x176.Slices ![0, 16] S128x160
  slices_S128x15x16_o0_0_0_S128x1x1 : S128x15x16.Slices ![0, 0, 0] S128x1x1
  shapeCasts_S128x1x1_S128 : S128x1x1.ShapeCasts S128
  shapeCasts_S128_S128x1 : S128.ShapeCasts S128x1
  shapeCasts_S128x1_S128x1 : S128x1.ShapeCasts S128x1
  broadcasts_S128x1_S128x160 : S128x1.Broadcasts S128x160
  slices_S128x176_o0_15_S128x160 : S128x176.Slices ![0, 15] S128x160
  slices_S128x15x16_o0_0_1_S128x1x1 : S128x15x16.Slices ![0, 0, 1] S128x1x1
  slices_S128x176_o0_14_S128x160 : S128x176.Slices ![0, 14] S128x160
  slices_S128x15x16_o0_0_2_S128x1x1 : S128x15x16.Slices ![0, 0, 2] S128x1x1
  slices_S128x176_o0_13_S128x160 : S128x176.Slices ![0, 13] S128x160
  slices_S128x15x16_o0_0_3_S128x1x1 : S128x15x16.Slices ![0, 0, 3] S128x1x1
  slices_S128x176_o0_12_S128x160 : S128x176.Slices ![0, 12] S128x160
  slices_S128x15x16_o0_0_4_S128x1x1 : S128x15x16.Slices ![0, 0, 4] S128x1x1
  slices_S128x176_o0_11_S128x160 : S128x176.Slices ![0, 11] S128x160
  slices_S128x15x16_o0_0_5_S128x1x1 : S128x15x16.Slices ![0, 0, 5] S128x1x1
  slices_S128x176_o0_10_S128x160 : S128x176.Slices ![0, 10] S128x160
  slices_S128x15x16_o0_0_6_S128x1x1 : S128x15x16.Slices ![0, 0, 6] S128x1x1
  slices_S128x176_o0_9_S128x160 : S128x176.Slices ![0, 9] S128x160
  slices_S128x15x16_o0_0_7_S128x1x1 : S128x15x16.Slices ![0, 0, 7] S128x1x1
  slices_S128x176_o0_8_S128x160 : S128x176.Slices ![0, 8] S128x160
  slices_S128x15x16_o0_0_8_S128x1x1 : S128x15x16.Slices ![0, 0, 8] S128x1x1
  slices_S128x176_o0_7_S128x160 : S128x176.Slices ![0, 7] S128x160
  slices_S128x15x16_o0_0_9_S128x1x1 : S128x15x16.Slices ![0, 0, 9] S128x1x1
  slices_S128x176_o0_6_S128x160 : S128x176.Slices ![0, 6] S128x160
  slices_S128x15x16_o0_0_10_S128x1x1 : S128x15x16.Slices ![0, 0, 10] S128x1x1
  slices_S128x176_o0_5_S128x160 : S128x176.Slices ![0, 5] S128x160
  slices_S128x15x16_o0_0_11_S128x1x1 : S128x15x16.Slices ![0, 0, 11] S128x1x1
  slices_S128x176_o0_4_S128x160 : S128x176.Slices ![0, 4] S128x160
  slices_S128x15x16_o0_0_12_S128x1x1 : S128x15x16.Slices ![0, 0, 12] S128x1x1
  slices_S128x176_o0_3_S128x160 : S128x176.Slices ![0, 3] S128x160
  slices_S128x15x16_o0_0_13_S128x1x1 : S128x15x16.Slices ![0, 0, 13] S128x1x1
  slices_S128x176_o0_2_S128x160 : S128x176.Slices ![0, 2] S128x160
  slices_S128x15x16_o0_0_14_S128x1x1 : S128x15x16.Slices ![0, 0, 14] S128x1x1
  slices_S128x176_o0_1_S128x160 : S128x176.Slices ![0, 1] S128x160
  slices_S128x15x16_o0_0_15_S128x1x1 : S128x15x16.Slices ![0, 0, 15] S128x1x1
  shapeCasts_S128x160_S128x160 : S128x160.ShapeCasts S128x160
  inb_S128x2400_S128x160_0_160 : ∀ a, (![0, 160] : Fin 2 → Nat) a + S128x160.size a ≤ S128x2400.size a
  inb_S128x2400_S128x16_0_144 : ∀ a, (![0, 144] : Fin 2 → Nat) a + S128x16.size a ≤ S128x2400.size a
  h_S128x16 : 0 < S128x16.numel
  slices_S128x15x16_o0_1_0_S128x1x1 : S128x15x16.Slices ![0, 1, 0] S128x1x1
  slices_S128x15x16_o0_1_1_S128x1x1 : S128x15x16.Slices ![0, 1, 1] S128x1x1
  slices_S128x15x16_o0_1_2_S128x1x1 : S128x15x16.Slices ![0, 1, 2] S128x1x1
  slices_S128x15x16_o0_1_3_S128x1x1 : S128x15x16.Slices ![0, 1, 3] S128x1x1
  slices_S128x15x16_o0_1_4_S128x1x1 : S128x15x16.Slices ![0, 1, 4] S128x1x1
  slices_S128x15x16_o0_1_5_S128x1x1 : S128x15x16.Slices ![0, 1, 5] S128x1x1
  slices_S128x15x16_o0_1_6_S128x1x1 : S128x15x16.Slices ![0, 1, 6] S128x1x1
  slices_S128x15x16_o0_1_7_S128x1x1 : S128x15x16.Slices ![0, 1, 7] S128x1x1
  slices_S128x15x16_o0_1_8_S128x1x1 : S128x15x16.Slices ![0, 1, 8] S128x1x1
  slices_S128x15x16_o0_1_9_S128x1x1 : S128x15x16.Slices ![0, 1, 9] S128x1x1
  slices_S128x15x16_o0_1_10_S128x1x1 : S128x15x16.Slices ![0, 1, 10] S128x1x1
  slices_S128x15x16_o0_1_11_S128x1x1 : S128x15x16.Slices ![0, 1, 11] S128x1x1
  slices_S128x15x16_o0_1_12_S128x1x1 : S128x15x16.Slices ![0, 1, 12] S128x1x1
  slices_S128x15x16_o0_1_13_S128x1x1 : S128x15x16.Slices ![0, 1, 13] S128x1x1
  slices_S128x15x16_o0_1_14_S128x1x1 : S128x15x16.Slices ![0, 1, 14] S128x1x1
  slices_S128x15x16_o0_1_15_S128x1x1 : S128x15x16.Slices ![0, 1, 15] S128x1x1
  inb_S128x2400_S128x160_0_320 : ∀ a, (![0, 320] : Fin 2 → Nat) a + S128x160.size a ≤ S128x2400.size a
  inb_S128x2400_S128x16_0_304 : ∀ a, (![0, 304] : Fin 2 → Nat) a + S128x16.size a ≤ S128x2400.size a
  slices_S128x15x16_o0_2_0_S128x1x1 : S128x15x16.Slices ![0, 2, 0] S128x1x1
  slices_S128x15x16_o0_2_1_S128x1x1 : S128x15x16.Slices ![0, 2, 1] S128x1x1
  slices_S128x15x16_o0_2_2_S128x1x1 : S128x15x16.Slices ![0, 2, 2] S128x1x1
  slices_S128x15x16_o0_2_3_S128x1x1 : S128x15x16.Slices ![0, 2, 3] S128x1x1
  slices_S128x15x16_o0_2_4_S128x1x1 : S128x15x16.Slices ![0, 2, 4] S128x1x1
  slices_S128x15x16_o0_2_5_S128x1x1 : S128x15x16.Slices ![0, 2, 5] S128x1x1
  slices_S128x15x16_o0_2_6_S128x1x1 : S128x15x16.Slices ![0, 2, 6] S128x1x1
  slices_S128x15x16_o0_2_7_S128x1x1 : S128x15x16.Slices ![0, 2, 7] S128x1x1
  slices_S128x15x16_o0_2_8_S128x1x1 : S128x15x16.Slices ![0, 2, 8] S128x1x1
  slices_S128x15x16_o0_2_9_S128x1x1 : S128x15x16.Slices ![0, 2, 9] S128x1x1
  slices_S128x15x16_o0_2_10_S128x1x1 : S128x15x16.Slices ![0, 2, 10] S128x1x1
  slices_S128x15x16_o0_2_11_S128x1x1 : S128x15x16.Slices ![0, 2, 11] S128x1x1
  slices_S128x15x16_o0_2_12_S128x1x1 : S128x15x16.Slices ![0, 2, 12] S128x1x1
  slices_S128x15x16_o0_2_13_S128x1x1 : S128x15x16.Slices ![0, 2, 13] S128x1x1
  slices_S128x15x16_o0_2_14_S128x1x1 : S128x15x16.Slices ![0, 2, 14] S128x1x1
  slices_S128x15x16_o0_2_15_S128x1x1 : S128x15x16.Slices ![0, 2, 15] S128x1x1
  inb_S128x2400_S128x160_0_480 : ∀ a, (![0, 480] : Fin 2 → Nat) a + S128x160.size a ≤ S128x2400.size a
  inb_S128x2400_S128x16_0_464 : ∀ a, (![0, 464] : Fin 2 → Nat) a + S128x16.size a ≤ S128x2400.size a
  slices_S128x15x16_o0_3_0_S128x1x1 : S128x15x16.Slices ![0, 3, 0] S128x1x1
  slices_S128x15x16_o0_3_1_S128x1x1 : S128x15x16.Slices ![0, 3, 1] S128x1x1
  slices_S128x15x16_o0_3_2_S128x1x1 : S128x15x16.Slices ![0, 3, 2] S128x1x1
  slices_S128x15x16_o0_3_3_S128x1x1 : S128x15x16.Slices ![0, 3, 3] S128x1x1
  slices_S128x15x16_o0_3_4_S128x1x1 : S128x15x16.Slices ![0, 3, 4] S128x1x1
  slices_S128x15x16_o0_3_5_S128x1x1 : S128x15x16.Slices ![0, 3, 5] S128x1x1
  slices_S128x15x16_o0_3_6_S128x1x1 : S128x15x16.Slices ![0, 3, 6] S128x1x1
  slices_S128x15x16_o0_3_7_S128x1x1 : S128x15x16.Slices ![0, 3, 7] S128x1x1
  slices_S128x15x16_o0_3_8_S128x1x1 : S128x15x16.Slices ![0, 3, 8] S128x1x1
  slices_S128x15x16_o0_3_9_S128x1x1 : S128x15x16.Slices ![0, 3, 9] S128x1x1
  slices_S128x15x16_o0_3_10_S128x1x1 : S128x15x16.Slices ![0, 3, 10] S128x1x1
  slices_S128x15x16_o0_3_11_S128x1x1 : S128x15x16.Slices ![0, 3, 11] S128x1x1
  slices_S128x15x16_o0_3_12_S128x1x1 : S128x15x16.Slices ![0, 3, 12] S128x1x1
  slices_S128x15x16_o0_3_13_S128x1x1 : S128x15x16.Slices ![0, 3, 13] S128x1x1
  slices_S128x15x16_o0_3_14_S128x1x1 : S128x15x16.Slices ![0, 3, 14] S128x1x1
  slices_S128x15x16_o0_3_15_S128x1x1 : S128x15x16.Slices ![0, 3, 15] S128x1x1
  inb_S128x2400_S128x160_0_640 : ∀ a, (![0, 640] : Fin 2 → Nat) a + S128x160.size a ≤ S128x2400.size a
  inb_S128x2400_S128x16_0_624 : ∀ a, (![0, 624] : Fin 2 → Nat) a + S128x16.size a ≤ S128x2400.size a
  slices_S128x15x16_o0_4_0_S128x1x1 : S128x15x16.Slices ![0, 4, 0] S128x1x1
  slices_S128x15x16_o0_4_1_S128x1x1 : S128x15x16.Slices ![0, 4, 1] S128x1x1
  slices_S128x15x16_o0_4_2_S128x1x1 : S128x15x16.Slices ![0, 4, 2] S128x1x1
  slices_S128x15x16_o0_4_3_S128x1x1 : S128x15x16.Slices ![0, 4, 3] S128x1x1
  slices_S128x15x16_o0_4_4_S128x1x1 : S128x15x16.Slices ![0, 4, 4] S128x1x1
  slices_S128x15x16_o0_4_5_S128x1x1 : S128x15x16.Slices ![0, 4, 5] S128x1x1
  slices_S128x15x16_o0_4_6_S128x1x1 : S128x15x16.Slices ![0, 4, 6] S128x1x1
  slices_S128x15x16_o0_4_7_S128x1x1 : S128x15x16.Slices ![0, 4, 7] S128x1x1
  slices_S128x15x16_o0_4_8_S128x1x1 : S128x15x16.Slices ![0, 4, 8] S128x1x1
  slices_S128x15x16_o0_4_9_S128x1x1 : S128x15x16.Slices ![0, 4, 9] S128x1x1
  slices_S128x15x16_o0_4_10_S128x1x1 : S128x15x16.Slices ![0, 4, 10] S128x1x1
  slices_S128x15x16_o0_4_11_S128x1x1 : S128x15x16.Slices ![0, 4, 11] S128x1x1
  slices_S128x15x16_o0_4_12_S128x1x1 : S128x15x16.Slices ![0, 4, 12] S128x1x1
  slices_S128x15x16_o0_4_13_S128x1x1 : S128x15x16.Slices ![0, 4, 13] S128x1x1
  slices_S128x15x16_o0_4_14_S128x1x1 : S128x15x16.Slices ![0, 4, 14] S128x1x1
  slices_S128x15x16_o0_4_15_S128x1x1 : S128x15x16.Slices ![0, 4, 15] S128x1x1
  inb_S128x2400_S128x160_0_800 : ∀ a, (![0, 800] : Fin 2 → Nat) a + S128x160.size a ≤ S128x2400.size a
  inb_S128x2400_S128x16_0_784 : ∀ a, (![0, 784] : Fin 2 → Nat) a + S128x16.size a ≤ S128x2400.size a
  slices_S128x15x16_o0_5_0_S128x1x1 : S128x15x16.Slices ![0, 5, 0] S128x1x1
  slices_S128x15x16_o0_5_1_S128x1x1 : S128x15x16.Slices ![0, 5, 1] S128x1x1
  slices_S128x15x16_o0_5_2_S128x1x1 : S128x15x16.Slices ![0, 5, 2] S128x1x1
  slices_S128x15x16_o0_5_3_S128x1x1 : S128x15x16.Slices ![0, 5, 3] S128x1x1
  slices_S128x15x16_o0_5_4_S128x1x1 : S128x15x16.Slices ![0, 5, 4] S128x1x1
  slices_S128x15x16_o0_5_5_S128x1x1 : S128x15x16.Slices ![0, 5, 5] S128x1x1
  slices_S128x15x16_o0_5_6_S128x1x1 : S128x15x16.Slices ![0, 5, 6] S128x1x1
  slices_S128x15x16_o0_5_7_S128x1x1 : S128x15x16.Slices ![0, 5, 7] S128x1x1
  slices_S128x15x16_o0_5_8_S128x1x1 : S128x15x16.Slices ![0, 5, 8] S128x1x1
  slices_S128x15x16_o0_5_9_S128x1x1 : S128x15x16.Slices ![0, 5, 9] S128x1x1
  slices_S128x15x16_o0_5_10_S128x1x1 : S128x15x16.Slices ![0, 5, 10] S128x1x1
  slices_S128x15x16_o0_5_11_S128x1x1 : S128x15x16.Slices ![0, 5, 11] S128x1x1
  slices_S128x15x16_o0_5_12_S128x1x1 : S128x15x16.Slices ![0, 5, 12] S128x1x1
  slices_S128x15x16_o0_5_13_S128x1x1 : S128x15x16.Slices ![0, 5, 13] S128x1x1
  slices_S128x15x16_o0_5_14_S128x1x1 : S128x15x16.Slices ![0, 5, 14] S128x1x1
  slices_S128x15x16_o0_5_15_S128x1x1 : S128x15x16.Slices ![0, 5, 15] S128x1x1
  inb_S128x2400_S128x160_0_960 : ∀ a, (![0, 960] : Fin 2 → Nat) a + S128x160.size a ≤ S128x2400.size a
  inb_S128x2400_S128x16_0_944 : ∀ a, (![0, 944] : Fin 2 → Nat) a + S128x16.size a ≤ S128x2400.size a
  slices_S128x15x16_o0_6_0_S128x1x1 : S128x15x16.Slices ![0, 6, 0] S128x1x1
  slices_S128x15x16_o0_6_1_S128x1x1 : S128x15x16.Slices ![0, 6, 1] S128x1x1
  slices_S128x15x16_o0_6_2_S128x1x1 : S128x15x16.Slices ![0, 6, 2] S128x1x1
  slices_S128x15x16_o0_6_3_S128x1x1 : S128x15x16.Slices ![0, 6, 3] S128x1x1
  slices_S128x15x16_o0_6_4_S128x1x1 : S128x15x16.Slices ![0, 6, 4] S128x1x1
  slices_S128x15x16_o0_6_5_S128x1x1 : S128x15x16.Slices ![0, 6, 5] S128x1x1
  slices_S128x15x16_o0_6_6_S128x1x1 : S128x15x16.Slices ![0, 6, 6] S128x1x1
  slices_S128x15x16_o0_6_7_S128x1x1 : S128x15x16.Slices ![0, 6, 7] S128x1x1
  slices_S128x15x16_o0_6_8_S128x1x1 : S128x15x16.Slices ![0, 6, 8] S128x1x1
  slices_S128x15x16_o0_6_9_S128x1x1 : S128x15x16.Slices ![0, 6, 9] S128x1x1
  slices_S128x15x16_o0_6_10_S128x1x1 : S128x15x16.Slices ![0, 6, 10] S128x1x1
  slices_S128x15x16_o0_6_11_S128x1x1 : S128x15x16.Slices ![0, 6, 11] S128x1x1
  slices_S128x15x16_o0_6_12_S128x1x1 : S128x15x16.Slices ![0, 6, 12] S128x1x1
  slices_S128x15x16_o0_6_13_S128x1x1 : S128x15x16.Slices ![0, 6, 13] S128x1x1
  slices_S128x15x16_o0_6_14_S128x1x1 : S128x15x16.Slices ![0, 6, 14] S128x1x1
  slices_S128x15x16_o0_6_15_S128x1x1 : S128x15x16.Slices ![0, 6, 15] S128x1x1
  inb_S128x2400_S128x160_0_1120 : ∀ a, (![0, 1120] : Fin 2 → Nat) a + S128x160.size a ≤ S128x2400.size a
  inb_S128x2400_S128x16_0_1104 : ∀ a, (![0, 1104] : Fin 2 → Nat) a + S128x16.size a ≤ S128x2400.size a
  slices_S128x15x16_o0_7_0_S128x1x1 : S128x15x16.Slices ![0, 7, 0] S128x1x1
  slices_S128x15x16_o0_7_1_S128x1x1 : S128x15x16.Slices ![0, 7, 1] S128x1x1
  slices_S128x15x16_o0_7_2_S128x1x1 : S128x15x16.Slices ![0, 7, 2] S128x1x1
  slices_S128x15x16_o0_7_3_S128x1x1 : S128x15x16.Slices ![0, 7, 3] S128x1x1
  slices_S128x15x16_o0_7_4_S128x1x1 : S128x15x16.Slices ![0, 7, 4] S128x1x1
  slices_S128x15x16_o0_7_5_S128x1x1 : S128x15x16.Slices ![0, 7, 5] S128x1x1
  slices_S128x15x16_o0_7_6_S128x1x1 : S128x15x16.Slices ![0, 7, 6] S128x1x1
  slices_S128x15x16_o0_7_7_S128x1x1 : S128x15x16.Slices ![0, 7, 7] S128x1x1
  slices_S128x15x16_o0_7_8_S128x1x1 : S128x15x16.Slices ![0, 7, 8] S128x1x1
  slices_S128x15x16_o0_7_9_S128x1x1 : S128x15x16.Slices ![0, 7, 9] S128x1x1
  slices_S128x15x16_o0_7_10_S128x1x1 : S128x15x16.Slices ![0, 7, 10] S128x1x1
  slices_S128x15x16_o0_7_11_S128x1x1 : S128x15x16.Slices ![0, 7, 11] S128x1x1
  slices_S128x15x16_o0_7_12_S128x1x1 : S128x15x16.Slices ![0, 7, 12] S128x1x1
  slices_S128x15x16_o0_7_13_S128x1x1 : S128x15x16.Slices ![0, 7, 13] S128x1x1
  slices_S128x15x16_o0_7_14_S128x1x1 : S128x15x16.Slices ![0, 7, 14] S128x1x1
  slices_S128x15x16_o0_7_15_S128x1x1 : S128x15x16.Slices ![0, 7, 15] S128x1x1
  inb_S128x2400_S128x160_0_1280 : ∀ a, (![0, 1280] : Fin 2 → Nat) a + S128x160.size a ≤ S128x2400.size a
  inb_S128x2400_S128x16_0_1264 : ∀ a, (![0, 1264] : Fin 2 → Nat) a + S128x16.size a ≤ S128x2400.size a
  slices_S128x15x16_o0_8_0_S128x1x1 : S128x15x16.Slices ![0, 8, 0] S128x1x1
  slices_S128x15x16_o0_8_1_S128x1x1 : S128x15x16.Slices ![0, 8, 1] S128x1x1
  slices_S128x15x16_o0_8_2_S128x1x1 : S128x15x16.Slices ![0, 8, 2] S128x1x1
  slices_S128x15x16_o0_8_3_S128x1x1 : S128x15x16.Slices ![0, 8, 3] S128x1x1
  slices_S128x15x16_o0_8_4_S128x1x1 : S128x15x16.Slices ![0, 8, 4] S128x1x1
  slices_S128x15x16_o0_8_5_S128x1x1 : S128x15x16.Slices ![0, 8, 5] S128x1x1
  slices_S128x15x16_o0_8_6_S128x1x1 : S128x15x16.Slices ![0, 8, 6] S128x1x1
  slices_S128x15x16_o0_8_7_S128x1x1 : S128x15x16.Slices ![0, 8, 7] S128x1x1
  slices_S128x15x16_o0_8_8_S128x1x1 : S128x15x16.Slices ![0, 8, 8] S128x1x1
  slices_S128x15x16_o0_8_9_S128x1x1 : S128x15x16.Slices ![0, 8, 9] S128x1x1
  slices_S128x15x16_o0_8_10_S128x1x1 : S128x15x16.Slices ![0, 8, 10] S128x1x1
  slices_S128x15x16_o0_8_11_S128x1x1 : S128x15x16.Slices ![0, 8, 11] S128x1x1
  slices_S128x15x16_o0_8_12_S128x1x1 : S128x15x16.Slices ![0, 8, 12] S128x1x1
  slices_S128x15x16_o0_8_13_S128x1x1 : S128x15x16.Slices ![0, 8, 13] S128x1x1
  slices_S128x15x16_o0_8_14_S128x1x1 : S128x15x16.Slices ![0, 8, 14] S128x1x1
  slices_S128x15x16_o0_8_15_S128x1x1 : S128x15x16.Slices ![0, 8, 15] S128x1x1
  inb_S128x2400_S128x160_0_1440 : ∀ a, (![0, 1440] : Fin 2 → Nat) a + S128x160.size a ≤ S128x2400.size a
  inb_S128x2400_S128x16_0_1424 : ∀ a, (![0, 1424] : Fin 2 → Nat) a + S128x16.size a ≤ S128x2400.size a
  slices_S128x15x16_o0_9_0_S128x1x1 : S128x15x16.Slices ![0, 9, 0] S128x1x1
  slices_S128x15x16_o0_9_1_S128x1x1 : S128x15x16.Slices ![0, 9, 1] S128x1x1
  slices_S128x15x16_o0_9_2_S128x1x1 : S128x15x16.Slices ![0, 9, 2] S128x1x1
  slices_S128x15x16_o0_9_3_S128x1x1 : S128x15x16.Slices ![0, 9, 3] S128x1x1
  slices_S128x15x16_o0_9_4_S128x1x1 : S128x15x16.Slices ![0, 9, 4] S128x1x1
  slices_S128x15x16_o0_9_5_S128x1x1 : S128x15x16.Slices ![0, 9, 5] S128x1x1
  slices_S128x15x16_o0_9_6_S128x1x1 : S128x15x16.Slices ![0, 9, 6] S128x1x1
  slices_S128x15x16_o0_9_7_S128x1x1 : S128x15x16.Slices ![0, 9, 7] S128x1x1
  slices_S128x15x16_o0_9_8_S128x1x1 : S128x15x16.Slices ![0, 9, 8] S128x1x1
  slices_S128x15x16_o0_9_9_S128x1x1 : S128x15x16.Slices ![0, 9, 9] S128x1x1
  slices_S128x15x16_o0_9_10_S128x1x1 : S128x15x16.Slices ![0, 9, 10] S128x1x1
  slices_S128x15x16_o0_9_11_S128x1x1 : S128x15x16.Slices ![0, 9, 11] S128x1x1
  slices_S128x15x16_o0_9_12_S128x1x1 : S128x15x16.Slices ![0, 9, 12] S128x1x1
  slices_S128x15x16_o0_9_13_S128x1x1 : S128x15x16.Slices ![0, 9, 13] S128x1x1
  slices_S128x15x16_o0_9_14_S128x1x1 : S128x15x16.Slices ![0, 9, 14] S128x1x1
  slices_S128x15x16_o0_9_15_S128x1x1 : S128x15x16.Slices ![0, 9, 15] S128x1x1
  inb_S128x2400_S128x160_0_1600 : ∀ a, (![0, 1600] : Fin 2 → Nat) a + S128x160.size a ≤ S128x2400.size a
  inb_S128x2400_S128x16_0_1584 : ∀ a, (![0, 1584] : Fin 2 → Nat) a + S128x16.size a ≤ S128x2400.size a
  slices_S128x15x16_o0_10_0_S128x1x1 : S128x15x16.Slices ![0, 10, 0] S128x1x1
  slices_S128x15x16_o0_10_1_S128x1x1 : S128x15x16.Slices ![0, 10, 1] S128x1x1
  slices_S128x15x16_o0_10_2_S128x1x1 : S128x15x16.Slices ![0, 10, 2] S128x1x1
  slices_S128x15x16_o0_10_3_S128x1x1 : S128x15x16.Slices ![0, 10, 3] S128x1x1
  slices_S128x15x16_o0_10_4_S128x1x1 : S128x15x16.Slices ![0, 10, 4] S128x1x1
  slices_S128x15x16_o0_10_5_S128x1x1 : S128x15x16.Slices ![0, 10, 5] S128x1x1
  slices_S128x15x16_o0_10_6_S128x1x1 : S128x15x16.Slices ![0, 10, 6] S128x1x1
  slices_S128x15x16_o0_10_7_S128x1x1 : S128x15x16.Slices ![0, 10, 7] S128x1x1
  slices_S128x15x16_o0_10_8_S128x1x1 : S128x15x16.Slices ![0, 10, 8] S128x1x1
  slices_S128x15x16_o0_10_9_S128x1x1 : S128x15x16.Slices ![0, 10, 9] S128x1x1
  slices_S128x15x16_o0_10_10_S128x1x1 : S128x15x16.Slices ![0, 10, 10] S128x1x1
  slices_S128x15x16_o0_10_11_S128x1x1 : S128x15x16.Slices ![0, 10, 11] S128x1x1
  slices_S128x15x16_o0_10_12_S128x1x1 : S128x15x16.Slices ![0, 10, 12] S128x1x1
  slices_S128x15x16_o0_10_13_S128x1x1 : S128x15x16.Slices ![0, 10, 13] S128x1x1
  slices_S128x15x16_o0_10_14_S128x1x1 : S128x15x16.Slices ![0, 10, 14] S128x1x1
  slices_S128x15x16_o0_10_15_S128x1x1 : S128x15x16.Slices ![0, 10, 15] S128x1x1
  inb_S128x2400_S128x160_0_1760 : ∀ a, (![0, 1760] : Fin 2 → Nat) a + S128x160.size a ≤ S128x2400.size a
  inb_S128x2400_S128x16_0_1744 : ∀ a, (![0, 1744] : Fin 2 → Nat) a + S128x16.size a ≤ S128x2400.size a
  slices_S128x15x16_o0_11_0_S128x1x1 : S128x15x16.Slices ![0, 11, 0] S128x1x1
  slices_S128x15x16_o0_11_1_S128x1x1 : S128x15x16.Slices ![0, 11, 1] S128x1x1
  slices_S128x15x16_o0_11_2_S128x1x1 : S128x15x16.Slices ![0, 11, 2] S128x1x1
  slices_S128x15x16_o0_11_3_S128x1x1 : S128x15x16.Slices ![0, 11, 3] S128x1x1
  slices_S128x15x16_o0_11_4_S128x1x1 : S128x15x16.Slices ![0, 11, 4] S128x1x1
  slices_S128x15x16_o0_11_5_S128x1x1 : S128x15x16.Slices ![0, 11, 5] S128x1x1
  slices_S128x15x16_o0_11_6_S128x1x1 : S128x15x16.Slices ![0, 11, 6] S128x1x1
  slices_S128x15x16_o0_11_7_S128x1x1 : S128x15x16.Slices ![0, 11, 7] S128x1x1
  slices_S128x15x16_o0_11_8_S128x1x1 : S128x15x16.Slices ![0, 11, 8] S128x1x1
  slices_S128x15x16_o0_11_9_S128x1x1 : S128x15x16.Slices ![0, 11, 9] S128x1x1
  slices_S128x15x16_o0_11_10_S128x1x1 : S128x15x16.Slices ![0, 11, 10] S128x1x1
  slices_S128x15x16_o0_11_11_S128x1x1 : S128x15x16.Slices ![0, 11, 11] S128x1x1
  slices_S128x15x16_o0_11_12_S128x1x1 : S128x15x16.Slices ![0, 11, 12] S128x1x1
  slices_S128x15x16_o0_11_13_S128x1x1 : S128x15x16.Slices ![0, 11, 13] S128x1x1
  slices_S128x15x16_o0_11_14_S128x1x1 : S128x15x16.Slices ![0, 11, 14] S128x1x1
  slices_S128x15x16_o0_11_15_S128x1x1 : S128x15x16.Slices ![0, 11, 15] S128x1x1
  inb_S128x2400_S128x160_0_1920 : ∀ a, (![0, 1920] : Fin 2 → Nat) a + S128x160.size a ≤ S128x2400.size a
  inb_S128x2400_S128x16_0_1904 : ∀ a, (![0, 1904] : Fin 2 → Nat) a + S128x16.size a ≤ S128x2400.size a
  slices_S128x15x16_o0_12_0_S128x1x1 : S128x15x16.Slices ![0, 12, 0] S128x1x1
  slices_S128x15x16_o0_12_1_S128x1x1 : S128x15x16.Slices ![0, 12, 1] S128x1x1
  slices_S128x15x16_o0_12_2_S128x1x1 : S128x15x16.Slices ![0, 12, 2] S128x1x1
  slices_S128x15x16_o0_12_3_S128x1x1 : S128x15x16.Slices ![0, 12, 3] S128x1x1
  slices_S128x15x16_o0_12_4_S128x1x1 : S128x15x16.Slices ![0, 12, 4] S128x1x1
  slices_S128x15x16_o0_12_5_S128x1x1 : S128x15x16.Slices ![0, 12, 5] S128x1x1
  slices_S128x15x16_o0_12_6_S128x1x1 : S128x15x16.Slices ![0, 12, 6] S128x1x1
  slices_S128x15x16_o0_12_7_S128x1x1 : S128x15x16.Slices ![0, 12, 7] S128x1x1
  slices_S128x15x16_o0_12_8_S128x1x1 : S128x15x16.Slices ![0, 12, 8] S128x1x1
  slices_S128x15x16_o0_12_9_S128x1x1 : S128x15x16.Slices ![0, 12, 9] S128x1x1
  slices_S128x15x16_o0_12_10_S128x1x1 : S128x15x16.Slices ![0, 12, 10] S128x1x1
  slices_S128x15x16_o0_12_11_S128x1x1 : S128x15x16.Slices ![0, 12, 11] S128x1x1
  slices_S128x15x16_o0_12_12_S128x1x1 : S128x15x16.Slices ![0, 12, 12] S128x1x1
  slices_S128x15x16_o0_12_13_S128x1x1 : S128x15x16.Slices ![0, 12, 13] S128x1x1
  slices_S128x15x16_o0_12_14_S128x1x1 : S128x15x16.Slices ![0, 12, 14] S128x1x1
  slices_S128x15x16_o0_12_15_S128x1x1 : S128x15x16.Slices ![0, 12, 15] S128x1x1
  inb_S128x2400_S128x160_0_2080 : ∀ a, (![0, 2080] : Fin 2 → Nat) a + S128x160.size a ≤ S128x2400.size a
  inb_S128x2400_S128x16_0_2064 : ∀ a, (![0, 2064] : Fin 2 → Nat) a + S128x16.size a ≤ S128x2400.size a
  slices_S128x15x16_o0_13_0_S128x1x1 : S128x15x16.Slices ![0, 13, 0] S128x1x1
  slices_S128x15x16_o0_13_1_S128x1x1 : S128x15x16.Slices ![0, 13, 1] S128x1x1
  slices_S128x15x16_o0_13_2_S128x1x1 : S128x15x16.Slices ![0, 13, 2] S128x1x1
  slices_S128x15x16_o0_13_3_S128x1x1 : S128x15x16.Slices ![0, 13, 3] S128x1x1
  slices_S128x15x16_o0_13_4_S128x1x1 : S128x15x16.Slices ![0, 13, 4] S128x1x1
  slices_S128x15x16_o0_13_5_S128x1x1 : S128x15x16.Slices ![0, 13, 5] S128x1x1
  slices_S128x15x16_o0_13_6_S128x1x1 : S128x15x16.Slices ![0, 13, 6] S128x1x1
  slices_S128x15x16_o0_13_7_S128x1x1 : S128x15x16.Slices ![0, 13, 7] S128x1x1
  slices_S128x15x16_o0_13_8_S128x1x1 : S128x15x16.Slices ![0, 13, 8] S128x1x1
  slices_S128x15x16_o0_13_9_S128x1x1 : S128x15x16.Slices ![0, 13, 9] S128x1x1
  slices_S128x15x16_o0_13_10_S128x1x1 : S128x15x16.Slices ![0, 13, 10] S128x1x1
  slices_S128x15x16_o0_13_11_S128x1x1 : S128x15x16.Slices ![0, 13, 11] S128x1x1
  slices_S128x15x16_o0_13_12_S128x1x1 : S128x15x16.Slices ![0, 13, 12] S128x1x1
  slices_S128x15x16_o0_13_13_S128x1x1 : S128x15x16.Slices ![0, 13, 13] S128x1x1
  slices_S128x15x16_o0_13_14_S128x1x1 : S128x15x16.Slices ![0, 13, 14] S128x1x1
  slices_S128x15x16_o0_13_15_S128x1x1 : S128x15x16.Slices ![0, 13, 15] S128x1x1
  inb_S128x2400_S128x160_0_2240 : ∀ a, (![0, 2240] : Fin 2 → Nat) a + S128x160.size a ≤ S128x2400.size a
  inb_S128x2400_S128x16_0_2224 : ∀ a, (![0, 2224] : Fin 2 → Nat) a + S128x16.size a ≤ S128x2400.size a
  slices_S128x15x16_o0_14_0_S128x1x1 : S128x15x16.Slices ![0, 14, 0] S128x1x1
  slices_S128x15x16_o0_14_1_S128x1x1 : S128x15x16.Slices ![0, 14, 1] S128x1x1
  slices_S128x15x16_o0_14_2_S128x1x1 : S128x15x16.Slices ![0, 14, 2] S128x1x1
  slices_S128x15x16_o0_14_3_S128x1x1 : S128x15x16.Slices ![0, 14, 3] S128x1x1
  slices_S128x15x16_o0_14_4_S128x1x1 : S128x15x16.Slices ![0, 14, 4] S128x1x1
  slices_S128x15x16_o0_14_5_S128x1x1 : S128x15x16.Slices ![0, 14, 5] S128x1x1
  slices_S128x15x16_o0_14_6_S128x1x1 : S128x15x16.Slices ![0, 14, 6] S128x1x1
  slices_S128x15x16_o0_14_7_S128x1x1 : S128x15x16.Slices ![0, 14, 7] S128x1x1
  slices_S128x15x16_o0_14_8_S128x1x1 : S128x15x16.Slices ![0, 14, 8] S128x1x1
  slices_S128x15x16_o0_14_9_S128x1x1 : S128x15x16.Slices ![0, 14, 9] S128x1x1
  slices_S128x15x16_o0_14_10_S128x1x1 : S128x15x16.Slices ![0, 14, 10] S128x1x1
  slices_S128x15x16_o0_14_11_S128x1x1 : S128x15x16.Slices ![0, 14, 11] S128x1x1
  slices_S128x15x16_o0_14_12_S128x1x1 : S128x15x16.Slices ![0, 14, 12] S128x1x1
  slices_S128x15x16_o0_14_13_S128x1x1 : S128x15x16.Slices ![0, 14, 13] S128x1x1
  slices_S128x15x16_o0_14_14_S128x1x1 : S128x15x16.Slices ![0, 14, 14] S128x1x1
  slices_S128x15x16_o0_14_15_S128x1x1 : S128x15x16.Slices ![0, 14, 15] S128x1x1
  bcast_S2048x2400_S2048x2400x1_0_1 : S2048x2400.BroadcastsInDim S2048x2400x1 (![0, 1] : Fin 2 → Fin S2048x2400x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2400.size a ≤ S2048x2400.size a
  hwx0_0 : ∀ i : grid0.Coords, EltTy.bits .f32 = 32 ∨ (Rect.block (s := S2048x2400) S128x2400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x15x16.size a ≤ S2048x15x16.size a
  hwx0_1 : ∀ i : grid0.Coords, EltTy.bits .f32 = 32 ∨ (Rect.block (s := S2048x15x16) S128x15x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2400.size a ≤ S2048x2400.size a
  hwx0_2 : ∀ i : grid0.Coords, EltTy.bits .f32 = 32 ∨ (Rect.block (s := S2048x2400) S128x2400.size (cc0_transform_2 i) (hinb0_2 i)).WholeWords (EltTy.packing .f32)

variable [Facts₀]

abbrev win0_0 : Pipeline.Window sig grid0 :=
  Pipeline.Window.ofSpec (Memref.whole main_v0) S128x2400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x15x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2400x1 : Shape := ⟨3, ![2048, 2400, 1]⟩
abbrev S2048x15x16 : Shape := ⟨3, ![2048, 15, 16]⟩
abbrev S_ : Shape := ⟨0, ![]⟩
abbrev S2048x16x1 : Shape := ⟨3, ![2048, 16, 1]⟩
abbrev S2048x2416x1 : Shape := ⟨3, ![2048, 2416, 1]⟩
abbrev S2048x2416 : Shape := ⟨2, ![2048, 2416]⟩
abbrev S2400 : Shape := ⟨1, ![2400]⟩
abbrev S2400x1 : Shape := ⟨2, ![2400, 1]⟩
abbrev S16 : Shape := ⟨1, ![16]⟩
abbrev S1x16 : Shape := ⟨2, ![1, 16]⟩
abbrev S2400x16 : Shape := ⟨2, ![2400, 16]⟩
abbrev S2400x16x1 : Shape := ⟨3, ![2400, 16, 1]⟩
abbrev S2048x2400x16 : Shape := ⟨3, ![2048, 2400, 16]⟩
abbrev S2048x15x160x16 : Shape := ⟨4, ![2048, 15, 160, 16]⟩
abbrev S2048x2400 : Shape := ⟨2, ![2048, 2400]⟩

abbrev nBuf : Space → Nat
  | .hbm => 76
  | .vmem => 0
  | .smem => 0
  | _ => 0

abbrev bufTy : (tb : Table) → Fin (tcTables nBuf tb) → BufTy
  | .hbm, ⟨0, _⟩ => ⟨S2048x2400x1, .f32⟩
  | .hbm, ⟨1, _⟩ => ⟨S2048x15x16, .f32⟩
  | .hbm, ⟨2, _⟩ => ⟨S_, .f32⟩
  | .hbm, ⟨3, _⟩ => ⟨S2048x2400x1, .f32⟩
  | .hbm, ⟨4, _⟩ => ⟨S2048x2400x1, .f32⟩
  | .hbm, ⟨5, _⟩ => ⟨S2048x2400x1, .f32⟩
  | .hbm, ⟨6, _⟩ => ⟨S2048x2400x1, .f32⟩
  | .hbm, ⟨7, _⟩ => ⟨S_, .f32⟩
  | .hbm, ⟨8, _⟩ => ⟨S2048x2400x1, .f32⟩
  | .hbm, ⟨9, _⟩ => ⟨S2048x2400x1, .f32⟩
  | .hbm, ⟨10, _⟩ => ⟨S_, .f32⟩
  | .hbm, ⟨11, _⟩ => ⟨S2048x2400x1, .f32⟩
  | .hbm, ⟨12, _⟩ => ⟨S2048x2400x1, .f32⟩
  | .hbm, ⟨13, _⟩ => ⟨S_, .f32⟩
  | .hbm, ⟨14, _⟩ => ⟨S2048x2400x1, .f32⟩
  | .hbm, ⟨15, _⟩ => ⟨S2048x2400x1, .f32⟩
  | .hbm, ⟨16, _⟩ => ⟨S2048x2400x1, .f32⟩
  | .hbm, ⟨17, _⟩ => ⟨S_, .f32⟩
  | .hbm, ⟨18, _⟩ => ⟨S2048x2400x1, .f32⟩
  | .hbm, ⟨19, _⟩ => ⟨S2048x2400x1, .f32⟩
  | .hbm, ⟨20, _⟩ => ⟨S2048x2400x1, .f32⟩
  | .hbm, ⟨21, _⟩ => ⟨S2048x16x1, .f32⟩
  | .hbm, ⟨22, _⟩ => ⟨S_, .f32⟩
  | .hbm, ⟨23, _⟩ => ⟨S2048x16x1, .f32⟩
  | .hbm, ⟨24, _⟩ => ⟨S2048x2416x1, .f32⟩
  | .hbm, ⟨25, _⟩ => ⟨S2048x2416, .f32⟩
  | .hbm, ⟨26, _⟩ => ⟨S2400, .i32⟩
  | .hbm, ⟨27, _⟩ => ⟨S2400x1, .i32⟩
  | .hbm, ⟨28, _⟩ => ⟨S_, .i32⟩
  | .hbm, ⟨29, _⟩ => ⟨S2400x1, .i32⟩
  | .hbm, ⟨30, _⟩ => ⟨S2400x1, .i32⟩
  | .hbm, ⟨31, _⟩ => ⟨S16, .i32⟩
  | .hbm, ⟨32, _⟩ => ⟨S1x16, .i32⟩
  | .hbm, ⟨33, _⟩ => ⟨S2400x16, .i32⟩
  | .hbm, ⟨34, _⟩ => ⟨S2400x16, .i32⟩
  | .hbm, ⟨35, _⟩ => ⟨S2400x16, .i32⟩
  | .hbm, ⟨36, _⟩ => ⟨S_, .i32⟩
  | .hbm, ⟨37, _⟩ => ⟨S2400x16, .i32⟩
  | .hbm, ⟨38, _⟩ => ⟨S2400x16, .i1⟩
  | .hbm, ⟨39, _⟩ => ⟨S_, .i32⟩
  | .hbm, ⟨40, _⟩ => ⟨S2400x16, .i32⟩
  | .hbm, ⟨41, _⟩ => ⟨S2400x16, .i32⟩
  | .hbm, ⟨42, _⟩ => ⟨S2400x16, .i32⟩
  | .hbm, ⟨43, _⟩ => ⟨S2400x16x1, .i32⟩
  | .hbm, ⟨44, _⟩ => ⟨S2048x2400x16, .f32⟩
  | .hbm, ⟨45, _⟩ => ⟨S2048x15x160x16, .f32⟩
  | .hbm, ⟨46, _⟩ => ⟨S2048x2400x16, .f32⟩
  | .hbm, ⟨47, _⟩ => ⟨S2048x2400x16, .f32⟩
  | .hbm, ⟨48, _⟩ => ⟨S_, .f32⟩
  | .hbm, ⟨49, _⟩ => ⟨S2048x2400, .f32⟩
  | .hbm, ⟨50, _⟩ => ⟨S2048x2400x1, .f32⟩
  | .hbm, ⟨51, _⟩ => ⟨S2048x2400x1, .f32⟩
  | .hbm, ⟨52, _⟩ => ⟨S2048x2400x1, .f32⟩
  | .hbm, ⟨53, _⟩ => ⟨S2048x2400x1, .f32⟩
  | .hbm, ⟨54, _⟩ => ⟨S_, .f32⟩
  | .hbm, ⟨55, _⟩ => ⟨S2048x2400x1, .f32⟩
  | .hbm, ⟨56, _⟩ => ⟨S2048x2400x1, .f32⟩
  | .hbm, ⟨57, _⟩ => ⟨S2048x2400x1, .f32⟩
  | .hbm, ⟨58, _⟩ => ⟨S_, .f32⟩
  | .hbm, ⟨59, _⟩ => ⟨S2048x2400x1, .f32⟩
  | .hbm, ⟨60, _⟩ => ⟨S2048x2400x1, .f32⟩
  | .hbm, ⟨61, _⟩ => ⟨S_, .f32⟩
  | .hbm, ⟨62, _⟩ => ⟨S2048x2400x1, .f32⟩
  | .hbm, ⟨63, _⟩ => ⟨S2048x2400x1, .f32⟩
  | .hbm, ⟨64, _⟩ => ⟨S2048x2400x1, .f32⟩
  | .hbm, ⟨65, _⟩ => ⟨S_, .f32⟩
  | .hbm, ⟨66, _⟩ => ⟨S2048x2400x1, .f32⟩
  | .hbm, ⟨67, _⟩ => ⟨S2048x2400x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S2048x2400x1, .f32⟩
  | .hbm, ⟨72, _⟩ => ⟨S2048x2400x1, .f32⟩
  | .hbm, ⟨73, _⟩ => ⟨S_, .f32⟩
  | .hbm, ⟨74, _⟩ => ⟨S2048x2400x1, .f32⟩
  | .hbm, ⟨75, _⟩ => ⟨S2048x2400x1, .f32⟩
  | _, _ => ⟨S2048x2400x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_cst_13 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S2048x2400x1 : S_.BroadcastsInDim S2048x2400x1 (![] : Fin 0 → Fin S2048x2400x1.rank)
  slices_S2048x2400x1_S2048x16x1_0_0_0 : S2048x2400x1.Slices ![0, 0, 0] S2048x16x1
  bcast_S_S2048x16x1 : S_.BroadcastsInDim S2048x16x1 (![] : Fin 0 → Fin S2048x16x1.rank)
  concatenates_S2048x16x1_S2048x2400x1_S2048x2416x1_d1 : Shape.Concatenates [S2048x16x1, S2048x2400x1] S2048x2416x1 1
  shapeCasts_S2048x2416x1_S2048x2416 : S2048x2416x1.ShapeCasts S2048x2416
  bcast_S2400_S2400x1_0 : S2400.BroadcastsInDim S2400x1 (![0] : Fin 1 → Fin S2400x1.rank)
  bcast_S_S2400x1 : S_.BroadcastsInDim S2400x1 (![] : Fin 0 → Fin S2400x1.rank)
  bcast_S16_S1x16_1 : S16.BroadcastsInDim S1x16 (![1] : Fin 1 → Fin S1x16.rank)
  bcast_S2400x1_S2400x16_0_1 : S2400x1.BroadcastsInDim S2400x16 (![0, 1] : Fin 2 → Fin S2400x16.rank)
  bcast_S1x16_S2400x16_0_1 : S1x16.BroadcastsInDim S2400x16 (![0, 1] : Fin 2 → Fin S2400x16.rank)
  bcast_S_S2400x16 : S_.BroadcastsInDim S2400x16 (![] : Fin 0 → Fin S2400x16.rank)
  bcast_S2400x16_S2400x16x1_0_1 : S2400x16.BroadcastsInDim S2400x16x1 (![0, 1] : Fin 2 → Fin S2400x16x1.rank)
  bcast_S2048x15x16_S2048x15x160x16_0_1_3 : S2048x15x16.BroadcastsInDim S2048x15x160x16 (![0, 1, 3] : Fin 3 → Fin S2048x15x160x16.rank)
  shapeCasts_S2048x15x160x16_S2048x2400x16 : S2048x15x160x16.ShapeCasts S2048x2400x16
  reducesTo_S2048x2400x16_S2048x2400_d2 : S2048x2400x16.ReducesTo [2] S2048x2400
  h_S_ : 0 < S_.numel
  bcast_S2048x2400_S2048x2400x1_0_1 : S2048x2400.BroadcastsInDim S2048x2400x1 (![0, 1] : Fin 2 → Fin S2048x2400x1.rank)
  gather_S2048x2416_S2400x16x1_S2048x2400x16_0_1_n_n_1_2_20481_wf : GatherDims.WF S2048x2416 S2400x16x1 S2048x2400x16 [0] [1] [] [1] [] 2 ![2048, 1]

variable [Facts₀]

def gather_S2048x2416_S2400x16x1_S2048x2400x16_0_1_n_n_1_2_20481 : GatherDims S2048x2416 S2400x16x1 S2048x2400x16 where
  offsetDims := [0]
  collapsedSliceDims := [1]
  operandBatchingDims := []
  startIndicesBatchingDims := []
  startIndexMap := [1]
  indexVectorDim := 2
  sliceSizes := ![2048, 1]
  wf := gather_S2048x2416_S2400x16x1_S2048x2400x16_0_1_n_n_1_2_20481_wf

class Facts : Prop extends Facts₀ where

variable [Facts]
-- ==== Proof.LibConcatBlocks.lean ====
/-
  A general lemma file (any extents, any element type): a two-piece concatenation read at an entry.

  Two matrices side by side (`cols_left`, `cols_right`), one above the other (`rows_top`, `rows_bottom`), and two vectors end to
  end (`vec_left`, `vec_right`): an entry in the first piece's range reads the first piece there, an entry past it reads the
  second piece at the position less the first piece's extent.
-/
import Idealize.ShloMosaic.Lib.Pipeline.Value
import Idealize.ShloMosaic.Lib.ValueIdx

noncomputable section

namespace Cert.ConcatBlocks

open Idealize.ShloMosaic Idealize.ShloMosaic.ValueIdx

variable {α : Type} {r a b t : ℕ}

theorem cols_left (h : Shape.Concatenates [(⟨2, ![r, a]⟩ : Shape), ⟨2, ![r, b]⟩] ⟨2, ![r, t]⟩ 1)
    (x : (⟨2, ![r, a]⟩ : Shape).Idx → α) (y : (⟨2, ![r, b]⟩ : Shape).Idx → α) (i : Fin r) (j : Fin a) (j' : Fin t) (hj : j'.val = j.val) :
    concatenate ⟨2, ![r, t]⟩ 1 [⟨⟨2, ![r, a]⟩, x⟩, ⟨⟨2, ![r, b]⟩, y⟩] h (ix2 i j') = x (ix2 i j) := by
  refine concatenate_pair_apply_left 1 x y h (ix2 i j') rfl (ix2 i j) fun ax => ?_
  match ax with
  | ⟨0, _⟩ => rfl
  | ⟨1, _⟩ => exact hj.symm

theorem cols_right (h : Shape.Concatenates [(⟨2, ![r, a]⟩ : Shape), ⟨2, ![r, b]⟩] ⟨2, ![r, t]⟩ 1)
    (x : (⟨2, ![r, a]⟩ : Shape).Idx → α) (y : (⟨2, ![r, b]⟩ : Shape).Idx → α) (i : Fin r) (j : Fin b) (j' : Fin t) (hj : j'.val = a + j.val) :
    concatenate ⟨2, ![r, t]⟩ 1 [⟨⟨2, ![r, a]⟩, x⟩, ⟨⟨2, ![r, b]⟩, y⟩] h (ix2 i j') = y (ix2 i j) := by
  refine concatenate_pair_apply_right 1 x y h (ix2 i j') rfl rfl (ix2 i j) (fun ax hax => ?_) ?_
  · match ax with
    | ⟨0, _⟩ => rfl
    | ⟨1, _⟩ => exact absurd rfl hax
  · show j.val + a = j'.val
    omega

theorem rows_top (h : Shape.Concatenates [(⟨2, ![a, r]⟩ : Shape), ⟨2, ![b, r]⟩] ⟨2, ![t, r]⟩ 0)
    (x : (⟨2, ![a, r]⟩ : Shape).Idx → α) (y : (⟨2, ![b, r]⟩ : Shape).Idx → α) (i : Fin a) (i' : Fin t) (hi : i'.val = i.val) (j : Fin r) :
    concatenate ⟨2, ![t, r]⟩ 0 [⟨⟨2, ![a, r]⟩, x⟩, ⟨⟨2, ![b, r]⟩, y⟩] h (ix2 i' j) = x (ix2 i j) := by
  refine concatenate_pair_apply_left 0 x y h (ix2 i' j) rfl (ix2 i j) fun ax => ?_
  match ax with
  | ⟨0, _⟩ => exact hi.symm
  | ⟨1, _⟩ => rfl

theorem rows_bottom (h : Shape.Concatenates [(⟨2, ![a, r]⟩ : Shape), ⟨2, ![b, r]⟩] ⟨2, ![t, r]⟩ 0)
    (x : (⟨2, ![a, r]⟩ : Shape).Idx → α) (y : (⟨2, ![b, r]⟩ : Shape).Idx → α) (i : Fin b) (i' : Fin t) (hi : i'.val = a + i.val) (j : Fin r) :
    concatenate ⟨2, ![t, r]⟩ 0 [⟨⟨2, ![a, r]⟩, x⟩, ⟨⟨2, ![b, r]⟩, y⟩] h (ix2 i' j) = y (ix2 i j) := by
  refine concatenate_pair_apply_right 0 x y h (ix2 i' j) rfl rfl (ix2 i j) (fun ax hax => ?_) ?_
  · match ax with
    | ⟨0, _⟩ => exact absurd rfl hax
    | ⟨1, _⟩ => rfl
  · show i.val + a = i'.val
    omega

theorem vec_left (h : Shape.Concatenates [(⟨1, ![a]⟩ : Shape), ⟨1, ![b]⟩] ⟨1, ![t]⟩ 0)
    (x : (⟨1, ![a]⟩ : Shape).Idx → α) (y : (⟨1, ![b]⟩ : Shape).Idx → α) (j : Fin a) (j' : Fin t) (hj : j'.val = j.val) :
    concatenate ⟨1, ![t]⟩ 0 [⟨⟨1, ![a]⟩, x⟩, ⟨⟨1, ![b]⟩, y⟩] h (ix1 j') = x (ix1 j) := by
  refine concatenate_pair_apply_left 0 x y h (ix1 j') rfl (ix1 j) fun ax => ?_
  match ax with
  | ⟨0, _⟩ => exact hj.symm

theorem vec_right (h : Shape.Concatenates [(⟨1, ![a]⟩ : Shape), ⟨1, ![b]⟩] ⟨1, ![t]⟩ 0)
    (x : (⟨1, ![a]⟩ : Shape).Idx → α) (y : (⟨1, ![b]⟩ : Shape).Idx → α) (j : Fin b) (j' : Fin t) (hj : j'.val = a + j.val) :
    concatenate ⟨1, ![t]⟩ 0 [⟨⟨1, ![a]⟩, x⟩, ⟨⟨1, ![b]⟩, y⟩] h (ix1 j') = y (ix1 j) := by
  refine concatenate_pair_apply_right 0 x y h (ix1 j') rfl rfl (ix1 j) (fun ax hax => ?_) ?_
  · match ax with
    | ⟨0, _⟩ => exact absurd rfl hax
  · show j.val + a = j'.val
    omega

end Cert.ConcatBlocks

end
-- ==== Proof.LibTapReads.lean ====
/-
  A general lemma file (any extents): the three index reads of a filter whose taps slide along the lanes.

  * `cat_slice`: a window of `m` columns, from column `o`, of two matrices laid side by side `[T | Fr]` reads, at `(p, j)`,
    column `o + j` of the pair: `T` there while `o + j` is among `T`'s `a` columns, else `Fr` at `o + j - a` (`catRead`).
  * `tap_weight`: entry `(·, f, i)` of a rank-3 array of weights, cut out as a column, turned into a vector and back into a
    column and spread over `m` lanes, reads at `(p, j)` the weight `(p, f, i)`.
  * `ld_cols`: a block of columns from column `o` of a matrix, read through its rectangle at `(p, j)`, is the matrix at `(p, o + j)`.
-/
import Idealize.ShloMosaic.Lib.Pipeline.Value
import Idealize.ShloMosaic.Lib.ValueIdx
import Idealize.ShloMosaic.Lib.ValueLayout
import proofs.«118022_j79336635892364_2_alg».proof.Proof.LibConcatBlocks

noncomputable section

namespace Cert.TapReads

open Idealize.ShloMosaic Idealize.ShloMosaic.ValueIdx

/-- Column `o + j` of `[T | Fr]`, row `p` (zero past the last column, which no window reaches). -/
def catRead {r a b m : ℕ} (T : (⟨2, ![r, a]⟩ : Shape).Idx → EReal) (Fr : (⟨2, ![r, b]⟩ : Shape).Idx → EReal) (o : ℕ)
    (p : Fin r) (j : Fin m) : EReal :=
  if h : o + j.val < a then T (ix2 p ⟨o + j.val, h⟩)
  else if h' : o + j.val - a < b then Fr (ix2 p ⟨o + j.val - a, h'⟩) else 0

theorem cat_slice {r a b t m : ℕ} (T : (⟨2, ![r, a]⟩ : Shape).Idx → EReal) (Fr : (⟨2, ![r, b]⟩ : Shape).Idx → EReal) (o : ℕ)
    (hc : Shape.Concatenates [(⟨2, ![r, a]⟩ : Shape), ⟨2, ![r, b]⟩] ⟨2, ![r, t]⟩ 1)
    (hs : (⟨2, ![r, t]⟩ : Shape).Slices ![0, o] ⟨2, ![r, m]⟩) (p : Fin r) (j : Fin m) :
    extractStridedSlice ⟨2, ![r, m]⟩ ![0, o] (concatenate ⟨2, ![r, t]⟩ 1 [⟨⟨2, ![r, a]⟩, T⟩, ⟨⟨2, ![r, b]⟩, Fr⟩] hc) hs (ix2 p j)
      = catRead T Fr o p j := by
  have ht : a + b = t := by
    have e := hc.2.2
    simpa using e
  have ho : o + m ≤ t := hs.2 1
  have hj := j.isLt
  rw [slice2_axis1_apply o _ hs p j ⟨o + j.val, by omega⟩ rfl]
  unfold catRead
  by_cases h : o + j.val < a
  · rw [dif_pos h]
    exact Cert.ConcatBlocks.cols_left hc T Fr p ⟨o + j.val, h⟩ _ rfl
  · rw [dif_neg h, dif_pos (by omega : o + j.val - a < b)]
    exact Cert.ConcatBlocks.cols_right hc T Fr p ⟨o + j.val - a, by omega⟩ _ (by show o + j.val = a + (o + j.val - a); omega)

theorem tap_weight {α : Type} {r nf nt m : ℕ} (W : (⟨3, ![r, nf, nt]⟩ : Shape).Idx → α) (f i : ℕ)
    (hs : (⟨3, ![r, nf, nt]⟩ : Shape).Slices ![0, f, i] ⟨3, ![r, 1, 1]⟩)
    (h1 : (⟨3, ![r, 1, 1]⟩ : Shape).ShapeCasts ⟨1, ![r]⟩) (h2 : (⟨1, ![r]⟩ : Shape).ShapeCasts ⟨2, ![r, 1]⟩)
    (hb : (⟨2, ![r, 1]⟩ : Shape).Broadcasts ⟨2, ![r, m]⟩) (p : Fin r) (j : Fin m) :
    broadcastTo ⟨2, ![r, m]⟩ (shapeCast ⟨2, ![r, 1]⟩ (shapeCast ⟨1, ![r]⟩ (extractStridedSlice ⟨3, ![r, 1, 1]⟩ ![0, f, i] W hs) h1) h2) hb (ix2 p j)
      = W (ix3 p ⟨f, Nat.lt_of_succ_le (hs.2 1)⟩ ⟨i, Nat.lt_of_succ_le (hs.2 2)⟩) := by
  refine (broadcastTo_apply _ hb (ix2 p j) (ix2 p 0) fun ax => ?_).trans ?_
  · match ax with
    | ⟨0, _⟩ =>
      show p.val = if r = 1 then 0 else p.val
      by_cases hr : r = 1
      · rw [if_pos hr]; have := p.isLt; omega
      · rw [if_neg hr]
    | ⟨1, _⟩ => show (0 : ℕ) = if (1 : ℕ) = 1 then 0 else j.val
                rw [if_pos rfl]
  refine (shapeCast_apply _ h2 (ix2 p 0) (ix1 p) ?_).trans ?_
  · rw [Shape.rowMajor_val_one, Shape.rowMajor_val_two]
    show p.val = p.val * 1 + 0
    omega
  refine (shapeCast_apply _ h1 (ix1 p) (ix3 p 0 0) ?_).trans ?_
  · rw [Shape.rowMajor_val_one, Shape.rowMajor_val_three]
    show (p.val * 1 + 0) * 1 + 0 = p.val
    omega
  exact extractStridedSlice_apply _ W hs (ix3 p 0 0) _ fun ax => by
    match ax with
    | ⟨0, _⟩ => show p.val = 0 + p.val
                omega
    | ⟨1, _⟩ => show f = f + 0
                omega
    | ⟨2, _⟩ => show i = i + 0
                omega

theorem ld_cols {Val : EltTy → Type} {e : EltTy} {r n m : ℕ} (X : (⟨2, ![r, n]⟩ : Shape).Idx → Val e) (o : ℕ)
    (inb : ∀ a, (![0, o] : Fin 2 → ℕ) a + (![r, m] : Fin 2 → ℕ) a ≤ (⟨2, ![r, n]⟩ : Shape).size a) (p : Fin r) (j : Fin m) :
    View.ld X (Rect.unit (s := ⟨2, ![r, n]⟩) ![0, o] ![r, m] inb) (ix2 p j)
      = X (ix2 p ⟨o + j.val, Nat.lt_of_lt_of_le (Nat.add_lt_add_left j.isLt o) (inb 1)⟩) := by
  show X _ = X _
  congr 1
  funext ax
  match ax with
  | ⟨0, _⟩ => exact Fin.ext (by show 0 + 1 * p.val = p.val; omega)
  | ⟨1, _⟩ => exact Fin.ext (by show o + 1 * j.val = o + j.val; omega)

end Cert.TapReads

end
-- ==== Proof.Spec.lean ====
/-
  The function both programs compute, on the extended reals, one output sample at a time.

  A row of 2400 mu-law samples `s` is decoded sample by sample (`decode`), filtered by a causal 16-tap
  predictor whose taps are constant on each frame of 160 samples (`predRow`: the negated sum over the taps
  `i` of the frame's weight `i` times the decoded sample `i` steps in the past, zero before the start of
  the row), and encoded again (`encode`).  The float literals stay the words the programs spell; only two of them are
  ever evaluated, for the one law that relates them: the word `0x3D317218` denotes the word `0x40B17218`
  divided by 128 (same significand, exponent lower by seven).
-/
import Idealize.ShloMosaic.PureOps.Ideal
import Idealize.ShloMosaic.PureOps.Ideal.Laws

noncomputable section

namespace Cert.Spec

open Idealize.ShloMosaic

/-- The extended real an f32 word denotes. -/
abbrev lit (b : BitVec 32) : EReal := Ideal.ofBits .f32 b

/-- Mu-law decoding of one sample: with `u = s - 128`, `sign u · (32768/255) · (exp (|u| · c) - 1)`, the constants as
    the words the programs spell. -/
def decode (s : EReal) : EReal :=
  (Ideal.sign (s - lit 0x43000000#32) * lit 0x43008081#32)
    * (Ideal.exp (max (s - lit 0x43000000#32) (-(s - lit 0x43000000#32)) * lit 0x3D317218#32) - lit 0x3F800000#32)

/-- Mu-law encoding of one sample, clipped to `[0, 255]`. -/
def encode (x : EReal) : EReal :=
  min (lit 0x437F0000#32) (max (lit 0x00000000#32)
    (lit 0x43000000#32 + Ideal.sign x
      * Ideal.div (lit 0x43000000#32 * Ideal.log1p (lit 0x3BFF0000#32 * max x (-x))) (lit 0x40B17218#32)))

/-- The sixteen products `w i · z i` added one after the other onto zero, tap 0 first. -/
def tapSum (w z : Fin 16 → EReal) : EReal :=
  ((((((((((((((((0 + w 0 * z 0) + w 1 * z 1) + w 2 * z 2) + w 3 * z 3) + w 4 * z 4) + w 5 * z 5) + w 6 * z 6) + w 7 * z 7) + w 8 * z 8) + w 9 * z 9) + w 10 * z 10) + w 11 * z 11) + w 12 * z 12) + w 13 * z 13) + w 14 * z 14) + w 15 * z 15)

/-- The sample `i` steps before position `q` of a row, zero before the row starts. -/
def past (x : Fin 2400 → EReal) (q : Fin 2400) (i : Fin 16) : EReal :=
  if h : i.val ≤ q.val then x ⟨q.val - i.val, by omega⟩ else 0

/-- The frame (of 160 samples) a position lies in. -/
def frameOf (q : Fin 2400) : Fin 15 := ⟨q.val / 160, by omega⟩

/-- The prediction at position `q`: minus the tap sum of the frame's weights against the row's past samples. -/
def predRow (x : Fin 2400 → EReal) (w : Fin 15 → Fin 16 → EReal) (q : Fin 2400) : EReal :=
  0 - tapSum (w (frameOf q)) (past x q)

/-- One output sample: decode the row, predict, encode. -/
def outRow (s : Fin 2400 → EReal) (w : Fin 15 → Fin 16 → EReal) (q : Fin 2400) : EReal :=
  encode (predRow (fun t => decode (s t)) w q)

/-- Adding the sixteen products one after the other onto zero is their sum over the taps. -/
theorem tapSum_eq_sum (w z : Fin 16 → EReal) : tapSum w z = ∑ i : Fin 16, w i * z i := by
  unfold tapSum
  simp only [Fin.sum_univ_succ, Fin.sum_univ_zero, zero_add, add_zero, add_assoc]
  rfl

/-- The word `0x43000000` denotes 128. -/
theorem lit_128 : lit 0x43000000#32 = ((128 : ℝ) : EReal) := by
  simp [lit, Ideal.ofBits, Ideal.ieee, -EReal.coe_mul]; norm_num

/-- The word `0x40B17218` denotes 11629080 / 2^21. -/
theorem lit_log256 : lit 0x40B17218#32 = ((11629080 / 2097152 : ℝ) : EReal) := by
  simp [lit, Ideal.ofBits, Ideal.ieee, -EReal.coe_mul]; norm_num

/-- The word `0x3D317218` denotes 11629080 / 2^28: the previous one divided by 128. -/
theorem lit_log256_128 : lit 0x3D317218#32 = ((11629080 / 268435456 : ℝ) : EReal) := by
  simp [lit, Ideal.ofBits, Ideal.ieee, -EReal.coe_mul]; norm_num

/-- Dividing by 128 and then multiplying by the larger word is multiplying by the smaller one, on every extended real. -/
theorem scale_law (a : EReal) :
    Ideal.div a (lit 0x43000000#32) * lit 0x40B17218#32 = a * lit 0x3D317218#32 := by
  rw [lit_128, lit_log256, lit_log256_128, Ideal.div_coe (by norm_num : (128 : ℝ) ≠ 0), mul_assoc, ← EReal.coe_mul]
  congr 2
  norm_num

end Cert.Spec

end
-- ==== Proof.Frames.lean ====
/-
  The predictor of one frame, read at a sample.

  For each of the fifteen frames `f` the kernel forms the 176 columns `[Tl | Fr]` — the frame's own 160 decoded samples `Fr`
  preceded by the 16 samples before it `Tl` (zeros for the first frame) —, and adds, tap after tap onto zero, the weight
  `W (p, f, i)` spread along the row times the window of 160 columns that starts at column `16 - i`; what it stores is zero
  minus that sum.  Read at row `p` and position `j` of the frame this is `0 - tapSum` of the row's weights against the columns
  `16 - i + j` of `[Tl | Fr]`.  The fifteen statements differ only in the frame number (and the first frame's zero
  columns); each is the same two steps: the operations' definitions, then the three index reads.
-/
import proofs.«118022_j79336635892364_2_alg».proof.Proof.Gen.KernelIdeal.Skeleton
import proofs.«118022_j79336635892364_2_alg».proof.Proof.LibTapReads
import proofs.«118022_j79336635892364_2_alg».proof.Proof.Spec
import Idealize.ShloMosaic.PureOps.Ideal.Laws

set_option maxRecDepth 16384

noncomputable section

namespace Cert.KernelIdeal.Frames

open Idealize.ShloMosaic Idealize.ShloMosaic.ValueIdx Cert.KernelIdeal Cert.KernelIdeal.Gen Cert.TapReads

/-- Frame 0. -/
theorem frame0 (W : Vec Ideal S128x15x16 .f32) (Fr : Vec Ideal S128x160 .f32) (p : Fin 128) (j : Fin 160) :
    (k0_pay9 (k0_pay8 W (k0_pay3 Fr) (k0_pay7 W (k0_pay3 Fr) (k0_pay4 W Fr) (k0_pay5 Fr) (k0_pay6 W)))) (ix2 p j)
      = 0 - Cert.Spec.tapSum (fun i => W (ix3 p 0 i)) (fun i => catRead (a := 16) (fun _ => (0 : EReal)) Fr (16 - i.val) p j) := by
  simp only [k0_pay3, k0_pay4, k0_pay5, k0_pay6, k0_pay7, k0_pay8, k0_pay9]
  simp only [shapeCast_self, subf_apply, addf_apply, mulf_apply, broadcast_apply, tap_weight, cat_slice,
    Ideal.ofBits_def, Ideal.ofBits_zero_f32]
  rfl

/-- Frame 1. -/
theorem frame1 (W : Vec Ideal S128x15x16 .f32) (Fr : Vec Ideal S128x160 .f32) (Tl : Vec Ideal S128x16 .f32) (p : Fin 128) (j : Fin 160) :
    (k0_pay17 W (k0_pay10 Fr Tl) (k0_pay14 W (k0_pay10 Fr Tl) (k0_pay11 W Fr Tl) (k0_pay12 Fr Tl) (k0_pay13 W)) (k0_pay15 (k0_pay10 Fr Tl)) (k0_pay16 W)) (ix2 p j)
      = 0 - Cert.Spec.tapSum (fun i => W (ix3 p 1 i)) (fun i => catRead (a := 16) Tl Fr (16 - i.val) p j) := by
  simp only [k0_pay10, k0_pay11, k0_pay12, k0_pay13, k0_pay14, k0_pay15, k0_pay16, k0_pay17]
  simp only [shapeCast_self, subf_apply, addf_apply, mulf_apply, broadcast_apply, tap_weight, cat_slice,
    Ideal.ofBits_def, Ideal.ofBits_zero_f32]
  rfl

/-- Frame 2. -/
theorem frame2 (W : Vec Ideal S128x15x16 .f32) (Fr : Vec Ideal S128x160 .f32) (Tl : Vec Ideal S128x16 .f32) (p : Fin 128) (j : Fin 160) :
    (k0_pay23 W (k0_pay18 Fr Tl) (k0_pay22 W (k0_pay18 Fr Tl) (k0_pay19 W Fr Tl) (k0_pay20 Fr Tl) (k0_pay21 W))) (ix2 p j)
      = 0 - Cert.Spec.tapSum (fun i => W (ix3 p 2 i)) (fun i => catRead (a := 16) Tl Fr (16 - i.val) p j) := by
  simp only [k0_pay18, k0_pay19, k0_pay20, k0_pay21, k0_pay22, k0_pay23]
  simp only [shapeCast_self, subf_apply, addf_apply, mulf_apply, broadcast_apply, tap_weight, cat_slice,
    Ideal.ofBits_def, Ideal.ofBits_zero_f32]
  rfl

/-- Frame 3. -/
theorem frame3 (W : Vec Ideal S128x15x16 .f32) (Fr : Vec Ideal S128x160 .f32) (Tl : Vec Ideal S128x16 .f32) (p : Fin 128) (j : Fin 160) :
    (k0_pay31 W (k0_pay24 Fr Tl) (k0_pay28 W (k0_pay24 Fr Tl) (k0_pay25 W Fr Tl) (k0_pay26 Fr Tl) (k0_pay27 W)) (k0_pay29 (k0_pay24 Fr Tl)) (k0_pay30 W)) (ix2 p j)
      = 0 - Cert.Spec.tapSum (fun i => W (ix3 p 3 i)) (fun i => catRead (a := 16) Tl Fr (16 - i.val) p j) := by
  simp only [k0_pay24, k0_pay25, k0_pay26, k0_pay27, k0_pay28, k0_pay29, k0_pay30, k0_pay31]
  simp only [shapeCast_self, subf_apply, addf_apply, mulf_apply, broadcast_apply, tap_weight, cat_slice,
    Ideal.ofBits_def, Ideal.ofBits_zero_f32]
  rfl

/-- Frame 4. -/
theorem frame4 (W : Vec Ideal S128x15x16 .f32) (Fr : Vec Ideal S128x160 .f32) (Tl : Vec Ideal S128x16 .f32) (p : Fin 128) (j : Fin 160) :
    (k0_pay37 W (k0_pay32 Fr Tl) (k0_pay36 W (k0_pay32 Fr Tl) (k0_pay33 W Fr Tl) (k0_pay34 Fr Tl) (k0_pay35 W))) (ix2 p j)
      = 0 - Cert.Spec.tapSum (fun i => W (ix3 p 4 i)) (fun i => catRead (a := 16) Tl Fr (16 - i.val) p j) := by
  simp only [k0_pay32, k0_pay33, k0_pay34, k0_pay35, k0_pay36, k0_pay37]
  simp only [shapeCast_self, subf_apply, addf_apply, mulf_apply, broadcast_apply, tap_weight, cat_slice,
    Ideal.ofBits_def, Ideal.ofBits_zero_f32]
  rfl

/-- Frame 5. -/
theorem frame5 (W : Vec Ideal S128x15x16 .f32) (Fr : Vec Ideal S128x160 .f32) (Tl : Vec Ideal S128x16 .f32) (p : Fin 128) (j : Fin 160) :
    (k0_pay48 (k0_pay45 W (k0_pay38 Fr Tl) (k0_pay42 W (k0_pay38 Fr Tl) k0_pay39 (k0_pay40 Fr Tl) (k0_pay41 W)) (k0_pay43 (k0_pay38 Fr Tl)) (k0_pay44 W)) (k0_pay46 (k0_pay38 Fr Tl)) (k0_pay47 W)) (ix2 p j)
      = 0 - Cert.Spec.tapSum (fun i => W (ix3 p 5 i)) (fun i => catRead (a := 16) Tl Fr (16 - i.val) p j) := by
  simp only [k0_pay38, k0_pay39, k0_pay40, k0_pay41, k0_pay42, k0_pay43, k0_pay44, k0_pay45, k0_pay46, k0_pay47, k0_pay48]
  simp only [shapeCast_self, subf_apply, addf_apply, mulf_apply, broadcast_apply, tap_weight, cat_slice,
    Ideal.ofBits_def, Ideal.ofBits_zero_f32]
  rfl

/-- Frame 6. -/
theorem frame6 (W : Vec Ideal S128x15x16 .f32) (Fr : Vec Ideal S128x160 .f32) (Tl : Vec Ideal S128x16 .f32) (p : Fin 128) (j : Fin 160) :
    (k0_pay54 W (k0_pay49 Fr Tl) (k0_pay53 W (k0_pay49 Fr Tl) (k0_pay50 W Fr Tl) (k0_pay51 Fr Tl) (k0_pay52 W))) (ix2 p j)
      = 0 - Cert.Spec.tapSum (fun i => W (ix3 p 6 i)) (fun i => catRead (a := 16) Tl Fr (16 - i.val) p j) := by
  simp only [k0_pay49, k0_pay50, k0_pay51, k0_pay52, k0_pay53, k0_pay54]
  simp only [shapeCast_self, subf_apply, addf_apply, mulf_apply, broadcast_apply, tap_weight, cat_slice,
    Ideal.ofBits_def, Ideal.ofBits_zero_f32]
  rfl

/-- Frame 7. -/
theorem frame7 (W : Vec Ideal S128x15x16 .f32) (Fr : Vec Ideal S128x160 .f32) (Tl : Vec Ideal S128x16 .f32) (p : Fin 128) (j : Fin 160) :
    (k0_pay64 (k0_pay62 W (k0_pay55 Fr Tl) (k0_pay59 W (k0_pay55 Fr Tl) (k0_pay56 W Fr Tl) (k0_pay57 Fr Tl) (k0_pay58 W)) (k0_pay60 (k0_pay55 Fr Tl)) (k0_pay61 W)) k0_pay63) (ix2 p j)
      = 0 - Cert.Spec.tapSum (fun i => W (ix3 p 7 i)) (fun i => catRead (a := 16) Tl Fr (16 - i.val) p j) := by
  simp only [k0_pay55, k0_pay56, k0_pay57, k0_pay58, k0_pay59, k0_pay60, k0_pay61, k0_pay62, k0_pay63, k0_pay64]
  simp only [shapeCast_self, subf_apply, addf_apply, mulf_apply, broadcast_apply, tap_weight, cat_slice,
    Ideal.ofBits_def, Ideal.ofBits_zero_f32]
  rfl

/-- Frame 8. -/
theorem frame8 (W : Vec Ideal S128x15x16 .f32) (Fr : Vec Ideal S128x160 .f32) (Tl : Vec Ideal S128x16 .f32) (p : Fin 128) (j : Fin 160) :
    (k0_pay70 W (k0_pay65 Fr Tl) (k0_pay69 W (k0_pay65 Fr Tl) (k0_pay66 W Fr Tl) (k0_pay67 Fr Tl) (k0_pay68 W))) (ix2 p j)
      = 0 - Cert.Spec.tapSum (fun i => W (ix3 p 8 i)) (fun i => catRead (a := 16) Tl Fr (16 - i.val) p j) := by
  simp only [k0_pay65, k0_pay66, k0_pay67, k0_pay68, k0_pay69, k0_pay70]
  simp only [shapeCast_self, subf_apply, addf_apply, mulf_apply, broadcast_apply, tap_weight, cat_slice,
    Ideal.ofBits_def, Ideal.ofBits_zero_f32]
  rfl

/-- Frame 9. -/
theorem frame9 (W : Vec Ideal S128x15x16 .f32) (Fr : Vec Ideal S128x160 .f32) (Tl : Vec Ideal S128x16 .f32) (p : Fin 128) (j : Fin 160) :
    (k0_pay78 W (k0_pay71 Fr Tl) (k0_pay75 W (k0_pay71 Fr Tl) (k0_pay72 W Fr Tl) (k0_pay73 Fr Tl) (k0_pay74 W)) (k0_pay76 (k0_pay71 Fr Tl)) (k0_pay77 W)) (ix2 p j)
      = 0 - Cert.Spec.tapSum (fun i => W (ix3 p 9 i)) (fun i => catRead (a := 16) Tl Fr (16 - i.val) p j) := by
  simp only [k0_pay71, k0_pay72, k0_pay73, k0_pay74, k0_pay75, k0_pay76, k0_pay77, k0_pay78]
  simp only [shapeCast_self, subf_apply, addf_apply, mulf_apply, broadcast_apply, tap_weight, cat_slice,
    Ideal.ofBits_def, Ideal.ofBits_zero_f32]
  rfl

/-- Frame 10. -/
theorem frame10 (W : Vec Ideal S128x15x16 .f32) (Fr : Vec Ideal S128x160 .f32) (Tl : Vec Ideal S128x16 .f32) (p : Fin 128) (j : Fin 160) :
    (k0_pay84 W (k0_pay79 Fr Tl) (k0_pay83 W (k0_pay79 Fr Tl) (k0_pay80 W Fr Tl) (k0_pay81 Fr Tl) (k0_pay82 W))) (ix2 p j)
      = 0 - Cert.Spec.tapSum (fun i => W (ix3 p 10 i)) (fun i => catRead (a := 16) Tl Fr (16 - i.val) p j) := by
  simp only [k0_pay79, k0_pay80, k0_pay81, k0_pay82, k0_pay83, k0_pay84]
  simp only [shapeCast_self, subf_apply, addf_apply, mulf_apply, broadcast_apply, tap_weight, cat_slice,
    Ideal.ofBits_def, Ideal.ofBits_zero_f32]
  rfl

/-- Frame 11. -/
theorem frame11 (W : Vec Ideal S128x15x16 .f32) (Fr : Vec Ideal S128x160 .f32) (Tl : Vec Ideal S128x16 .f32) (p : Fin 128) (j : Fin 160) :
    (k0_pay92 W (k0_pay85 Fr Tl) (k0_pay89 W (k0_pay85 Fr Tl) (k0_pay86 W Fr Tl) (k0_pay87 Fr Tl) (k0_pay88 W)) (k0_pay90 (k0_pay85 Fr Tl)) (k0_pay91 W)) (ix2 p j)
      = 0 - Cert.Spec.tapSum (fun i => W (ix3 p 11 i)) (fun i => catRead (a := 16) Tl Fr (16 - i.val) p j) := by
  simp only [k0_pay85, k0_pay86, k0_pay87, k0_pay88, k0_pay89, k0_pay90, k0_pay91, k0_pay92]
  simp only [shapeCast_self, subf_apply, addf_apply, mulf_apply, broadcast_apply, tap_weight, cat_slice,
    Ideal.ofBits_def, Ideal.ofBits_zero_f32]
  rfl

/-- Frame 12. -/
theorem frame12 (W : Vec Ideal S128x15x16 .f32) (Fr : Vec Ideal S128x160 .f32) (Tl : Vec Ideal S128x16 .f32) (p : Fin 128) (j : Fin 160) :
    (k0_pay99 W (k0_pay93 Fr Tl) (k0_pay98 W (k0_pay93 Fr Tl) (k0_pay95 W (k0_pay93 Fr Tl) k0_pay94) (k0_pay96 (k0_pay93 Fr Tl)) (k0_pay97 W))) (ix2 p j)
      = 0 - Cert.Spec.tapSum (fun i => W (ix3 p 12 i)) (fun i => catRead (a := 16) Tl Fr (16 - i.val) p j) := by
  simp only [k0_pay93, k0_pay94, k0_pay95, k0_pay96, k0_pay97, k0_pay98, k0_pay99]
  simp only [shapeCast_self, subf_apply, addf_apply, mulf_apply, broadcast_apply, tap_weight, cat_slice,
    Ideal.ofBits_def, Ideal.ofBits_zero_f32]
  rfl

/-- Frame 13. -/
theorem frame13 (W : Vec Ideal S128x15x16 .f32) (Fr : Vec Ideal S128x160 .f32) (Tl : Vec Ideal S128x16 .f32) (p : Fin 128) (j : Fin 160) :
    (k0_pay107 W (k0_pay100 Fr Tl) (k0_pay104 W (k0_pay100 Fr Tl) (k0_pay101 W Fr Tl) (k0_pay102 Fr Tl) (k0_pay103 W)) (k0_pay105 (k0_pay100 Fr Tl)) (k0_pay106 W)) (ix2 p j)
      = 0 - Cert.Spec.tapSum (fun i => W (ix3 p 13 i)) (fun i => catRead (a := 16) Tl Fr (16 - i.val) p j) := by
  simp only [k0_pay100, k0_pay101, k0_pay102, k0_pay103, k0_pay104, k0_pay105, k0_pay106, k0_pay107]
  simp only [shapeCast_self, subf_apply, addf_apply, mulf_apply, broadcast_apply, tap_weight, cat_slice,
    Ideal.ofBits_def, Ideal.ofBits_zero_f32]
  rfl

/-- Frame 14. -/
theorem frame14 (W : Vec Ideal S128x15x16 .f32) (Fr : Vec Ideal S128x160 .f32) (Tl : Vec Ideal S128x16 .f32) (p : Fin 128) (j : Fin 160) :
    (k0_pay114 (k0_pay113 W (k0_pay108 Fr Tl) (k0_pay110 W (k0_pay108 Fr Tl) (k0_pay109 W Fr Tl)) (k0_pay111 (k0_pay108 Fr Tl)) (k0_pay112 W))) (ix2 p j)
      = 0 - Cert.Spec.tapSum (fun i => W (ix3 p 14 i)) (fun i => catRead (a := 16) Tl Fr (16 - i.val) p j) := by
  simp only [k0_pay108, k0_pay109, k0_pay110, k0_pay111, k0_pay112, k0_pay113, k0_pay114]
  simp only [shapeCast_self, subf_apply, addf_apply, mulf_apply, broadcast_apply, tap_weight, cat_slice,
    Ideal.ofBits_def, Ideal.ofBits_zero_f32]
  rfl

end Cert.KernelIdeal.Frames

end
-- ==== Proof.FrameLaw.lean ====
/-
  From a frame's columns to the row's past.

  Frame `f` of a row of 2400 samples holds positions `160 f .. 160 f + 159`.  Its 160 columns `Fr` are the row at
  `160 f + k`, and the 16 columns before them `Tl` are the row at `160 f - 16 + k` (for the first frame there is nothing
  before, and `Tl` is zero).  Column `16 - i + j` of `[Tl | Fr]` is then the row's sample `i` steps before position
  `160 f + j` — in `Tl` when `j < i`, in `Fr` otherwise; the two cases name the same position —, or zero when the first
  frame is asked for a sample before the row's start.  So a frame's negated tap sum is the row's prediction `predRow` at
  that position.
-/
import proofs.«118022_j79336635892364_2_alg».proof.Proof.LibTapReads
import proofs.«118022_j79336635892364_2_alg».proof.Proof.Spec

noncomputable section

namespace Cert.FrameLaw

open Idealize.ShloMosaic Idealize.ShloMosaic.ValueIdx Cert.TapReads Cert.Spec

variable (X : (⟨2, ![128, 2400]⟩ : Shape).Idx → EReal) (W : (⟨3, ![128, 15, 16]⟩ : Shape).Idx → EReal)

/-- A later frame: both pieces of `[Tl | Fr]` are columns of the row. -/
theorem past_of_cols (f : ℕ) (hf1 : 1 ≤ f) (hf : f < 15)
    (Tl : (⟨2, ![128, 16]⟩ : Shape).Idx → EReal) (Fr : (⟨2, ![128, 160]⟩ : Shape).Idx → EReal)
    (hT : ∀ (p : Fin 128) (k : Fin 16), Tl (ix2 p k) = X (ix2 p ⟨160 * f - 16 + k.val, by have := k.isLt; omega⟩))
    (hF : ∀ (p : Fin 128) (k : Fin 160), Fr (ix2 p k) = X (ix2 p ⟨160 * f + k.val, by have := k.isLt; omega⟩))
    (p : Fin 128) (j : Fin 160) (i : Fin 16) :
    catRead Tl Fr (16 - i.val) p j = past (fun t => X (ix2 p t)) ⟨160 * f + j.val, by have := j.isLt; omega⟩ i := by
  have hj := j.isLt
  have hi := i.isLt
  have hle : i.val ≤ 160 * f + j.val := by omega
  have e2 : past (fun t => X (ix2 p t)) ⟨160 * f + j.val, by omega⟩ i = X (ix2 p ⟨160 * f + j.val - i.val, by omega⟩) := by
    unfold past; exact dif_pos hle
  rw [e2]
  unfold catRead
  by_cases h : 16 - i.val + j.val < 16
  · rw [dif_pos h, hT]
    exact congrArg (fun t => X (ix2 p t)) (Fin.ext (by show 160 * f - 16 + (16 - i.val + j.val) = 160 * f + j.val - i.val; omega))
  · rw [dif_neg h, dif_pos (by omega : 16 - i.val + j.val - 16 < 160), hF]
    exact congrArg (fun t => X (ix2 p t)) (Fin.ext (by show 160 * f + (16 - i.val + j.val - 16) = 160 * f + j.val - i.val; omega))

/-- The first frame: the 16 columns before it are zero, as is the row's past before its start. -/
theorem past_of_cols_first (Fr : (⟨2, ![128, 160]⟩ : Shape).Idx → EReal)
    (hF : ∀ (p : Fin 128) (k : Fin 160), Fr (ix2 p k) = X (ix2 p ⟨k.val, by have := k.isLt; omega⟩))
    (p : Fin 128) (j : Fin 160) (i : Fin 16) :
    catRead (a := 16) (fun _ => (0 : EReal)) Fr (16 - i.val) p j = past (fun t => X (ix2 p t)) ⟨j.val, by have := j.isLt; omega⟩ i := by
  have hj := j.isLt
  have hi := i.isLt
  by_cases h : 16 - i.val + j.val < 16
  · have hnle : ¬ i.val ≤ j.val := by omega
    have e2 : past (fun t => X (ix2 p t)) ⟨j.val, by omega⟩ i = 0 := by unfold past; exact dif_neg hnle
    rw [e2]
    unfold catRead
    rw [dif_pos h]
  · have hle : i.val ≤ j.val := by omega
    have e2 : past (fun t => X (ix2 p t)) ⟨j.val, by omega⟩ i = X (ix2 p ⟨j.val - i.val, by omega⟩) := by
      unfold past; exact dif_pos hle
    rw [e2]
    unfold catRead
    rw [dif_neg h, dif_pos (by omega : 16 - i.val + j.val - 16 < 160), hF]
    exact congrArg (fun t => X (ix2 p t)) (Fin.ext (by show 16 - i.val + j.val - 16 = j.val - i.val; omega))

/-- A later frame's negated tap sum is the row's prediction at the frame's position. -/
theorem frame_pred (f : ℕ) (hf1 : 1 ≤ f) (hf : f < 15)
    (Tl : (⟨2, ![128, 16]⟩ : Shape).Idx → EReal) (Fr : (⟨2, ![128, 160]⟩ : Shape).Idx → EReal)
    (hT : ∀ (p : Fin 128) (k : Fin 16), Tl (ix2 p k) = X (ix2 p ⟨160 * f - 16 + k.val, by have := k.isLt; omega⟩))
    (hF : ∀ (p : Fin 128) (k : Fin 160), Fr (ix2 p k) = X (ix2 p ⟨160 * f + k.val, by have := k.isLt; omega⟩))
    (p : Fin 128) (j : Fin 160) :
    0 - tapSum (fun i => W (ix3 p ⟨f, hf⟩ i)) (fun i => catRead Tl Fr (16 - i.val) p j)
      = predRow (fun t => X (ix2 p t)) (fun g i => W (ix3 p g i)) ⟨160 * f + j.val, by have := j.isLt; omega⟩ := by
  unfold predRow
  have hfr : frameOf ⟨160 * f + j.val, by have := j.isLt; omega⟩ = ⟨f, hf⟩ :=
    Fin.ext (by show (160 * f + j.val) / 160 = f; have := j.isLt; omega)
  rw [hfr]
  exact congrArg (fun z => 0 - tapSum (fun i => W (ix3 p ⟨f, hf⟩ i)) z)
    (funext fun i => past_of_cols X f hf1 hf Tl Fr hT hF p j i)

/-- The first frame's negated tap sum is the row's prediction at its position. -/
theorem frame_pred_first (Fr : (⟨2, ![128, 160]⟩ : Shape).Idx → EReal)
    (hF : ∀ (p : Fin 128) (k : Fin 160), Fr (ix2 p k) = X (ix2 p ⟨k.val, by have := k.isLt; omega⟩))
    (p : Fin 128) (j : Fin 160) :
    0 - tapSum (fun i => W (ix3 p 0 i)) (fun i => catRead (a := 16) (fun _ => (0 : EReal)) Fr (16 - i.val) p j)
      = predRow (fun t => X (ix2 p t)) (fun g i => W (ix3 p g i)) ⟨j.val, by have := j.isLt; omega⟩ := by
  unfold predRow
  have hfr : frameOf ⟨j.val, by have := j.isLt; omega⟩ = 0 :=
    Fin.ext (by show j.val / 160 = 0; have := j.isLt; omega)
  rw [hfr]
  exact congrArg (fun z => 0 - tapSum (fun i => W (ix3 p 0 i)) z)
    (funext fun i => past_of_cols_first X Fr hF p j i)

end Cert.FrameLaw

end
-- ==== Proof.Pieces.lean ====
/-
  Each stored frame is a block of ONE function of the decoded block and the weights.

  `predBlk XT W` is the prediction for a whole block of 128 rows: at `(p, q)` the row's prediction `Spec.predRow` at position
  `q`, from row `p` of the decoded samples `XT` and row `p` of the weights `W`.  Frame `f` is computed from the columns
  `160 f - 16 .. 160 f + 159` of `XT`, loaded as two blocks, and stored at columns `160 f .. 160 f + 159`: what is stored, read at
  an entry of the frame, is `predBlk XT W` at the entry's place in the block.
-/
import proofs.«118022_j79336635892364_2_alg».proof.Proof.Frames
import proofs.«118022_j79336635892364_2_alg».proof.Proof.FrameLaw

set_option maxRecDepth 16384

noncomputable section

namespace Cert.KernelIdeal.Pieces

open Idealize.ShloMosaic Idealize.ShloMosaic.ValueIdx Cert.KernelIdeal Cert.KernelIdeal.Gen Cert.TapReads

/-- The prediction for a block of rows, from the decoded block and the block of weights. -/
def predBlk (X : Vec Ideal S128x2400 .f32) (W : Vec Ideal S128x15x16 .f32) (y : S128x2400.Idx) : EReal :=
  Cert.Spec.predRow (fun t => X (ix2 (y 0) t)) (fun g i => W (ix3 (y 0) g i)) (y 1)

/-- An entry `(p, j)` of the 160 columns from column `o` sits at `(p, o + j)` of the block. -/
theorem predBlk_emb (X : Vec Ideal S128x2400 .f32) (W : Vec Ideal S128x15x16 .f32) (o : ℕ)
    (inb : ∀ a, (![0, o] : Fin 2 → ℕ) a + S128x160.size a ≤ S128x2400.size a) (p : Fin 128) (j : Fin 160) :
    predBlk X W ((Rect.unit (s := S128x2400) ![0, o] S128x160.size inb).emb (ix2 p j))
      = Cert.Spec.predRow (fun t => X (ix2 p t)) (fun g i => W (ix3 p g i))
          ⟨o + j.val, Nat.lt_of_lt_of_le (Nat.add_lt_add_left j.isLt o) (inb 1)⟩ := by
  have e : (Rect.unit (s := S128x2400) ![0, o] S128x160.size inb).emb (ix2 p j)
      = ix2 p ⟨o + j.val, Nat.lt_of_lt_of_le (Nat.add_lt_add_left j.isLt o) (inb 1)⟩ := by
    funext ax
    match ax with
    | ⟨0, _⟩ => exact Fin.ext (by show 0 + 1 * p.val = p.val; omega)
    | ⟨1, _⟩ => exact Fin.ext (by show o + 1 * j.val = o + j.val; omega)
  rw [e]
  rfl

/-- Frame 0: columns 0 to 159. -/
theorem piece0 (W : Vec Ideal S128x15x16 .f32) (XT : Vec Ideal S128x2400 .f32)
    (inbF : ∀ a, (![0, 0] : Fin 2 → ℕ) a + S128x160.size a ≤ S128x2400.size a)
    (x : S128x160.Idx) :
    (k0_pay9 (k0_pay8 W (k0_pay3 (View.ld XT (Rect.unit (s := S128x2400) ![0, 0] S128x160.size inbF))) (k0_pay7 W (k0_pay3 (View.ld XT (Rect.unit (s := S128x2400) ![0, 0] S128x160.size inbF))) (k0_pay4 W (View.ld XT (Rect.unit (s := S128x2400) ![0, 0] S128x160.size inbF))) (k0_pay5 (View.ld XT (Rect.unit (s := S128x2400) ![0, 0] S128x160.size inbF))) (k0_pay6 W)))) x
      = predBlk XT W ((Rect.unit (s := S128x2400) ![0, 0] S128x160.size inbF).emb x) := by
  obtain ⟨p, j, rfl⟩ : ∃ (p : Fin 128) (j : Fin 160), x = ix2 p j := ⟨x 0, x 1, eq_ix2 x⟩
  refine (Frames.frame0 W (View.ld XT (Rect.unit (s := S128x2400) ![0, 0] S128x160.size inbF)) p j).trans ?_
  refine (Cert.FrameLaw.frame_pred_first XT W (View.ld XT (Rect.unit (s := S128x2400) ![0, 0] S128x160.size inbF))
    (fun p k => (ld_cols XT 0 inbF p k).trans (congrArg (fun t => XT (ix2 p t)) (Fin.ext (Nat.zero_add _)))) p j).trans ?_
  refine Eq.trans ?_ (predBlk_emb XT W 0 inbF p j).symm
  exact congrArg (Cert.Spec.predRow (fun t => XT (ix2 p t)) (fun g i => W (ix3 p g i))) (Fin.ext (Nat.zero_add _).symm)

/-- Frame 1: columns 160 to 319. -/
theorem piece1 (W : Vec Ideal S128x15x16 .f32) (XT : Vec Ideal S128x2400 .f32)
    (inbF : ∀ a, (![0, 160] : Fin 2 → ℕ) a + S128x160.size a ≤ S128x2400.size a)
    (inbT : ∀ a, (![0, 144] : Fin 2 → ℕ) a + S128x16.size a ≤ S128x2400.size a)
    (x : S128x160.Idx) :
    (k0_pay17 W (k0_pay10 (View.ld XT (Rect.unit (s := S128x2400) ![0, 160] S128x160.size inbF)) (View.ld XT (Rect.unit (s := S128x2400) ![0, 144] S128x16.size inbT))) (k0_pay14 W (k0_pay10 (View.ld XT (Rect.unit (s := S128x2400) ![0, 160] S128x160.size inbF)) (View.ld XT (Rect.unit (s := S128x2400) ![0, 144] S128x16.size inbT))) (k0_pay11 W (View.ld XT (Rect.unit (s := S128x2400) ![0, 160] S128x160.size inbF)) (View.ld XT (Rect.unit (s := S128x2400) ![0, 144] S128x16.size inbT))) (k0_pay12 (View.ld XT (Rect.unit (s := S128x2400) ![0, 160] S128x160.size inbF)) (View.ld XT (Rect.unit (s := S128x2400) ![0, 144] S128x16.size inbT))) (k0_pay13 W)) (k0_pay15 (k0_pay10 (View.ld XT (Rect.unit (s := S128x2400) ![0, 160] S128x160.size inbF)) (View.ld XT (Rect.unit (s := S128x2400) ![0, 144] S128x16.size inbT)))) (k0_pay16 W)) x
      = predBlk XT W ((Rect.unit (s := S128x2400) ![0, 160] S128x160.size inbF).emb x) := by
  obtain ⟨p, j, rfl⟩ : ∃ (p : Fin 128) (j : Fin 160), x = ix2 p j := ⟨x 0, x 1, eq_ix2 x⟩
  refine (Frames.frame1 W (View.ld XT (Rect.unit (s := S128x2400) ![0, 160] S128x160.size inbF)) (View.ld XT (Rect.unit (s := S128x2400) ![0, 144] S128x16.size inbT)) p j).trans ?_
  refine (Cert.FrameLaw.frame_pred XT W 1 (by decide) (by decide) (View.ld XT (Rect.unit (s := S128x2400) ![0, 144] S128x16.size inbT)) (View.ld XT (Rect.unit (s := S128x2400) ![0, 160] S128x160.size inbF))
    (fun p k => ld_cols XT 144 inbT p k) (fun p k => ld_cols XT 160 inbF p k) p j).trans ?_
  exact (predBlk_emb XT W 160 inbF p j).symm

/-- Frame 2: columns 320 to 479. -/
theorem piece2 (W : Vec Ideal S128x15x16 .f32) (XT : Vec Ideal S128x2400 .f32)
    (inbF : ∀ a, (![0, 320] : Fin 2 → ℕ) a + S128x160.size a ≤ S128x2400.size a)
    (inbT : ∀ a, (![0, 304] : Fin 2 → ℕ) a + S128x16.size a ≤ S128x2400.size a)
    (x : S128x160.Idx) :
    (k0_pay23 W (k0_pay18 (View.ld XT (Rect.unit (s := S128x2400) ![0, 320] S128x160.size inbF)) (View.ld XT (Rect.unit (s := S128x2400) ![0, 304] S128x16.size inbT))) (k0_pay22 W (k0_pay18 (View.ld XT (Rect.unit (s := S128x2400) ![0, 320] S128x160.size inbF)) (View.ld XT (Rect.unit (s := S128x2400) ![0, 304] S128x16.size inbT))) (k0_pay19 W (View.ld XT (Rect.unit (s := S128x2400) ![0, 320] S128x160.size inbF)) (View.ld XT (Rect.unit (s := S128x2400) ![0, 304] S128x16.size inbT))) (k0_pay20 (View.ld XT (Rect.unit (s := S128x2400) ![0, 320] S128x160.size inbF)) (View.ld XT (Rect.unit (s := S128x2400) ![0, 304] S128x16.size inbT))) (k0_pay21 W))) x
      = predBlk XT W ((Rect.unit (s := S128x2400) ![0, 320] S128x160.size inbF).emb x) := by
  obtain ⟨p, j, rfl⟩ : ∃ (p : Fin 128) (j : Fin 160), x = ix2 p j := ⟨x 0, x 1, eq_ix2 x⟩
  refine (Frames.frame2 W (View.ld XT (Rect.unit (s := S128x2400) ![0, 320] S128x160.size inbF)) (View.ld XT (Rect.unit (s := S128x2400) ![0, 304] S128x16.size inbT)) p j).trans ?_
  refine (Cert.FrameLaw.frame_pred XT W 2 (by decide) (by decide) (View.ld XT (Rect.unit (s := S128x2400) ![0, 304] S128x16.size inbT)) (View.ld XT (Rect.unit (s := S128x2400) ![0, 320] S128x160.size inbF))
    (fun p k => ld_cols XT 304 inbT p k) (fun p k => ld_cols XT 320 inbF p k) p j).trans ?_
  exact (predBlk_emb XT W 320 inbF p j).symm

/-- Frame 3: columns 480 to 639. -/
theorem piece3 (W : Vec Ideal S128x15x16 .f32) (XT : Vec Ideal S128x2400 .f32)
    (inbF : ∀ a, (![0, 480] : Fin 2 → ℕ) a + S128x160.size a ≤ S128x2400.size a)
    (inbT : ∀ a, (![0, 464] : Fin 2 → ℕ) a + S128x16.size a ≤ S128x2400.size a)
    (x : S128x160.Idx) :
    (k0_pay31 W (k0_pay24 (View.ld XT (Rect.unit (s := S128x2400) ![0, 480] S128x160.size inbF)) (View.ld XT (Rect.unit (s := S128x2400) ![0, 464] S128x16.size inbT))) (k0_pay28 W (k0_pay24 (View.ld XT (Rect.unit (s := S128x2400) ![0, 480] S128x160.size inbF)) (View.ld XT (Rect.unit (s := S128x2400) ![0, 464] S128x16.size inbT))) (k0_pay25 W (View.ld XT (Rect.unit (s := S128x2400) ![0, 480] S128x160.size inbF)) (View.ld XT (Rect.unit (s := S128x2400) ![0, 464] S128x16.size inbT))) (k0_pay26 (View.ld XT (Rect.unit (s := S128x2400) ![0, 480] S128x160.size inbF)) (View.ld XT (Rect.unit (s := S128x2400) ![0, 464] S128x16.size inbT))) (k0_pay27 W)) (k0_pay29 (k0_pay24 (View.ld XT (Rect.unit (s := S128x2400) ![0, 480] S128x160.size inbF)) (View.ld XT (Rect.unit (s := S128x2400) ![0, 464] S128x16.size inbT)))) (k0_pay30 W)) x
      = predBlk XT W ((Rect.unit (s := S128x2400) ![0, 480] S128x160.size inbF).emb x) := by
  obtain ⟨p, j, rfl⟩ : ∃ (p : Fin 128) (j : Fin 160), x = ix2 p j := ⟨x 0, x 1, eq_ix2 x⟩
  refine (Frames.frame3 W (View.ld XT (Rect.unit (s := S128x2400) ![0, 480] S128x160.size inbF)) (View.ld XT (Rect.unit (s := S128x2400) ![0, 464] S128x16.size inbT)) p j).trans ?_
  refine (Cert.FrameLaw.frame_pred XT W 3 (by decide) (by decide) (View.ld XT (Rect.unit (s := S128x2400) ![0, 464] S128x16.size inbT)) (View.ld XT (Rect.unit (s := S128x2400) ![0, 480] S128x160.size inbF))
    (fun p k => ld_cols XT 464 inbT p k) (fun p k => ld_cols XT 480 inbF p k) p j).trans ?_
  exact (predBlk_emb XT W 480 inbF p j).symm

/-- Frame 4: columns 640 to 799. -/
theorem piece4 (W : Vec Ideal S128x15x16 .f32) (XT : Vec Ideal S128x2400 .f32)
    (inbF : ∀ a, (![0, 640] : Fin 2 → ℕ) a + S128x160.size a ≤ S128x2400.size a)
    (inbT : ∀ a, (![0, 624] : Fin 2 → ℕ) a + S128x16.size a ≤ S128x2400.size a)
    (x : S128x160.Idx) :
    (k0_pay37 W (k0_pay32 (View.ld XT (Rect.unit (s := S128x2400) ![0, 640] S128x160.size inbF)) (View.ld XT (Rect.unit (s := S128x2400) ![0, 624] S128x16.size inbT))) (k0_pay36 W (k0_pay32 (View.ld XT (Rect.unit (s := S128x2400) ![0, 640] S128x160.size inbF)) (View.ld XT (Rect.unit (s := S128x2400) ![0, 624] S128x16.size inbT))) (k0_pay33 W (View.ld XT (Rect.unit (s := S128x2400) ![0, 640] S128x160.size inbF)) (View.ld XT (Rect.unit (s := S128x2400) ![0, 624] S128x16.size inbT))) (k0_pay34 (View.ld XT (Rect.unit (s := S128x2400) ![0, 640] S128x160.size inbF)) (View.ld XT (Rect.unit (s := S128x2400) ![0, 624] S128x16.size inbT))) (k0_pay35 W))) x
      = predBlk XT W ((Rect.unit (s := S128x2400) ![0, 640] S128x160.size inbF).emb x) := by
  obtain ⟨p, j, rfl⟩ : ∃ (p : Fin 128) (j : Fin 160), x = ix2 p j := ⟨x 0, x 1, eq_ix2 x⟩
  refine (Frames.frame4 W (View.ld XT (Rect.unit (s := S128x2400) ![0, 640] S128x160.size inbF)) (View.ld XT (Rect.unit (s := S128x2400) ![0, 624] S128x16.size inbT)) p j).trans ?_
  refine (Cert.FrameLaw.frame_pred XT W 4 (by decide) (by decide) (View.ld XT (Rect.unit (s := S128x2400) ![0, 624] S128x16.size inbT)) (View.ld XT (Rect.unit (s := S128x2400) ![0, 640] S128x160.size inbF))
    (fun p k => ld_cols XT 624 inbT p k) (fun p k => ld_cols XT 640 inbF p k) p j).trans ?_
  exact (predBlk_emb XT W 640 inbF p j).symm

/-- Frame 5: columns 800 to 959. -/
theorem piece5 (W : Vec Ideal S128x15x16 .f32) (XT : Vec Ideal S128x2400 .f32)
    (inbF : ∀ a, (![0, 800] : Fin 2 → ℕ) a + S128x160.size a ≤ S128x2400.size a)
    (inbT : ∀ a, (![0, 784] : Fin 2 → ℕ) a + S128x16.size a ≤ S128x2400.size a)
    (x : S128x160.Idx) :
    (k0_pay48 (k0_pay45 W (k0_pay38 (View.ld XT (Rect.unit (s := S128x2400) ![0, 800] S128x160.size inbF)) (View.ld XT (Rect.unit (s := S128x2400) ![0, 784] S128x16.size inbT))) (k0_pay42 W (k0_pay38 (View.ld XT (Rect.unit (s := S128x2400) ![0, 800] S128x160.size inbF)) (View.ld XT (Rect.unit (s := S128x2400) ![0, 784] S128x16.size inbT))) k0_pay39 (k0_pay40 (View.ld XT (Rect.unit (s := S128x2400) ![0, 800] S128x160.size inbF)) (View.ld XT (Rect.unit (s := S128x2400) ![0, 784] S128x16.size inbT))) (k0_pay41 W)) (k0_pay43 (k0_pay38 (View.ld XT (Rect.unit (s := S128x2400) ![0, 800] S128x160.size inbF)) (View.ld XT (Rect.unit (s := S128x2400) ![0, 784] S128x16.size inbT)))) (k0_pay44 W)) (k0_pay46 (k0_pay38 (View.ld XT (Rect.unit (s := S128x2400) ![0, 800] S128x160.size inbF)) (View.ld XT (Rect.unit (s := S128x2400) ![0, 784] S128x16.size inbT)))) (k0_pay47 W)) x
      = predBlk XT W ((Rect.unit (s := S128x2400) ![0, 800] S128x160.size inbF).emb x) := by
  obtain ⟨p, j, rfl⟩ : ∃ (p : Fin 128) (j : Fin 160), x = ix2 p j := ⟨x 0, x 1, eq_ix2 x⟩
  refine (Frames.frame5 W (View.ld XT (Rect.unit (s := S128x2400) ![0, 800] S128x160.size inbF)) (View.ld XT (Rect.unit (s := S128x2400) ![0, 784] S128x16.size inbT)) p j).trans ?_
  refine (Cert.FrameLaw.frame_pred XT W 5 (by decide) (by decide) (View.ld XT (Rect.unit (s := S128x2400) ![0, 784] S128x16.size inbT)) (View.ld XT (Rect.unit (s := S128x2400) ![0, 800] S128x160.size inbF))
    (fun p k => ld_cols XT 784 inbT p k) (fun p k => ld_cols XT 800 inbF p k) p j).trans ?_
  exact (predBlk_emb XT W 800 inbF p j).symm

/-- Frame 6: columns 960 to 1119. -/
theorem piece6 (W : Vec Ideal S128x15x16 .f32) (XT : Vec Ideal S128x2400 .f32)
    (inbF : ∀ a, (![0, 960] : Fin 2 → ℕ) a + S128x160.size a ≤ S128x2400.size a)
    (inbT : ∀ a, (![0, 944] : Fin 2 → ℕ) a + S128x16.size a ≤ S128x2400.size a)
    (x : S128x160.Idx) :
    (k0_pay54 W (k0_pay49 (View.ld XT (Rect.unit (s := S128x2400) ![0, 960] S128x160.size inbF)) (View.ld XT (Rect.unit (s := S128x2400) ![0, 944] S128x16.size inbT))) (k0_pay53 W (k0_pay49 (View.ld XT (Rect.unit (s := S128x2400) ![0, 960] S128x160.size inbF)) (View.ld XT (Rect.unit (s := S128x2400) ![0, 944] S128x16.size inbT))) (k0_pay50 W (View.ld XT (Rect.unit (s := S128x2400) ![0, 960] S128x160.size inbF)) (View.ld XT (Rect.unit (s := S128x2400) ![0, 944] S128x16.size inbT))) (k0_pay51 (View.ld XT (Rect.unit (s := S128x2400) ![0, 960] S128x160.size inbF)) (View.ld XT (Rect.unit (s := S128x2400) ![0, 944] S128x16.size inbT))) (k0_pay52 W))) x
      = predBlk XT W ((Rect.unit (s := S128x2400) ![0, 960] S128x160.size inbF).emb x) := by
  obtain ⟨p, j, rfl⟩ : ∃ (p : Fin 128) (j : Fin 160), x = ix2 p j := ⟨x 0, x 1, eq_ix2 x⟩
  refine (Frames.frame6 W (View.ld XT (Rect.unit (s := S128x2400) ![0, 960] S128x160.size inbF)) (View.ld XT (Rect.unit (s := S128x2400) ![0, 944] S128x16.size inbT)) p j).trans ?_
  refine (Cert.FrameLaw.frame_pred XT W 6 (by decide) (by decide) (View.ld XT (Rect.unit (s := S128x2400) ![0, 944] S128x16.size inbT)) (View.ld XT (Rect.unit (s := S128x2400) ![0, 960] S128x160.size inbF))
    (fun p k => ld_cols XT 944 inbT p k) (fun p k => ld_cols XT 960 inbF p k) p j).trans ?_
  exact (predBlk_emb XT W 960 inbF p j).symm

/-- Frame 7: columns 1120 to 1279. -/
theorem piece7 (W : Vec Ideal S128x15x16 .f32) (XT : Vec Ideal S128x2400 .f32)
    (inbF : ∀ a, (![0, 1120] : Fin 2 → ℕ) a + S128x160.size a ≤ S128x2400.size a)
    (inbT : ∀ a, (![0, 1104] : Fin 2 → ℕ) a + S128x16.size a ≤ S128x2400.size a)
    (x : S128x160.Idx) :
    (k0_pay64 (k0_pay62 W (k0_pay55 (View.ld XT (Rect.unit (s := S128x2400) ![0, 1120] S128x160.size inbF)) (View.ld XT (Rect.unit (s := S128x2400) ![0, 1104] S128x16.size inbT))) (k0_pay59 W (k0_pay55 (View.ld XT (Rect.unit (s := S128x2400) ![0, 1120] S128x160.size inbF)) (View.ld XT (Rect.unit (s := S128x2400) ![0, 1104] S128x16.size inbT))) (k0_pay56 W (View.ld XT (Rect.unit (s := S128x2400) ![0, 1120] S128x160.size inbF)) (View.ld XT (Rect.unit (s := S128x2400) ![0, 1104] S128x16.size inbT))) (k0_pay57 (View.ld XT (Rect.unit (s := S128x2400) ![0, 1120] S128x160.size inbF)) (View.ld XT (Rect.unit (s := S128x2400) ![0, 1104] S128x16.size inbT))) (k0_pay58 W)) (k0_pay60 (k0_pay55 (View.ld XT (Rect.unit (s := S128x2400) ![0, 1120] S128x160.size inbF)) (View.ld XT (Rect.unit (s := S128x2400) ![0, 1104] S128x16.size inbT)))) (k0_pay61 W)) k0_pay63) x
      = predBlk XT W ((Rect.unit (s := S128x2400) ![0, 1120] S128x160.size inbF).emb x) := by
  obtain ⟨p, j, rfl⟩ : ∃ (p : Fin 128) (j : Fin 160), x = ix2 p j := ⟨x 0, x 1, eq_ix2 x⟩
  refine (Frames.frame7 W (View.ld XT (Rect.unit (s := S128x2400) ![0, 1120] S128x160.size inbF)) (View.ld XT (Rect.unit (s := S128x2400) ![0, 1104] S128x16.size inbT)) p j).trans ?_
  refine (Cert.FrameLaw.frame_pred XT W 7 (by decide) (by decide) (View.ld XT (Rect.unit (s := S128x2400) ![0, 1104] S128x16.size inbT)) (View.ld XT (Rect.unit (s := S128x2400) ![0, 1120] S128x160.size inbF))
    (fun p k => ld_cols XT 1104 inbT p k) (fun p k => ld_cols XT 1120 inbF p k) p j).trans ?_
  exact (predBlk_emb XT W 1120 inbF p j).symm

/-- Frame 8: columns 1280 to 1439. -/
theorem piece8 (W : Vec Ideal S128x15x16 .f32) (XT : Vec Ideal S128x2400 .f32)
    (inbF : ∀ a, (![0, 1280] : Fin 2 → ℕ) a + S128x160.size a ≤ S128x2400.size a)
    (inbT : ∀ a, (![0, 1264] : Fin 2 → ℕ) a + S128x16.size a ≤ S128x2400.size a)
    (x : S128x160.Idx) :
    (k0_pay70 W (k0_pay65 (View.ld XT (Rect.unit (s := S128x2400) ![0, 1280] S128x160.size inbF)) (View.ld XT (Rect.unit (s := S128x2400) ![0, 1264] S128x16.size inbT))) (k0_pay69 W (k0_pay65 (View.ld XT (Rect.unit (s := S128x2400) ![0, 1280] S128x160.size inbF)) (View.ld XT (Rect.unit (s := S128x2400) ![0, 1264] S128x16.size inbT))) (k0_pay66 W (View.ld XT (Rect.unit (s := S128x2400) ![0, 1280] S128x160.size inbF)) (View.ld XT (Rect.unit (s := S128x2400) ![0, 1264] S128x16.size inbT))) (k0_pay67 (View.ld XT (Rect.unit (s := S128x2400) ![0, 1280] S128x160.size inbF)) (View.ld XT (Rect.unit (s := S128x2400) ![0, 1264] S128x16.size inbT))) (k0_pay68 W))) x
      = predBlk XT W ((Rect.unit (s := S128x2400) ![0, 1280] S128x160.size inbF).emb x) := by
  obtain ⟨p, j, rfl⟩ : ∃ (p : Fin 128) (j : Fin 160), x = ix2 p j := ⟨x 0, x 1, eq_ix2 x⟩
  refine (Frames.frame8 W (View.ld XT (Rect.unit (s := S128x2400) ![0, 1280] S128x160.size inbF)) (View.ld XT (Rect.unit (s := S128x2400) ![0, 1264] S128x16.size inbT)) p j).trans ?_
  refine (Cert.FrameLaw.frame_pred XT W 8 (by decide) (by decide) (View.ld XT (Rect.unit (s := S128x2400) ![0, 1264] S128x16.size inbT)) (View.ld XT (Rect.unit (s := S128x2400) ![0, 1280] S128x160.size inbF))
    (fun p k => ld_cols XT 1264 inbT p k) (fun p k => ld_cols XT 1280 inbF p k) p j).trans ?_
  exact (predBlk_emb XT W 1280 inbF p j).symm

/-- Frame 9: columns 1440 to 1599. -/
theorem piece9 (W : Vec Ideal S128x15x16 .f32) (XT : Vec Ideal S128x2400 .f32)
    (inbF : ∀ a, (![0, 1440] : Fin 2 → ℕ) a + S128x160.size a ≤ S128x2400.size a)
    (inbT : ∀ a, (![0, 1424] : Fin 2 → ℕ) a + S128x16.size a ≤ S128x2400.size a)
    (x : S128x160.Idx) :
    (k0_pay78 W (k0_pay71 (View.ld XT (Rect.unit (s := S128x2400) ![0, 1440] S128x160.size inbF)) (View.ld XT (Rect.unit (s := S128x2400) ![0, 1424] S128x16.size inbT))) (k0_pay75 W (k0_pay71 (View.ld XT (Rect.unit (s := S128x2400) ![0, 1440] S128x160.size inbF)) (View.ld XT (Rect.unit (s := S128x2400) ![0, 1424] S128x16.size inbT))) (k0_pay72 W (View.ld XT (Rect.unit (s := S128x2400) ![0, 1440] S128x160.size inbF)) (View.ld XT (Rect.unit (s := S128x2400) ![0, 1424] S128x16.size inbT))) (k0_pay73 (View.ld XT (Rect.unit (s := S128x2400) ![0, 1440] S128x160.size inbF)) (View.ld XT (Rect.unit (s := S128x2400) ![0, 1424] S128x16.size inbT))) (k0_pay74 W)) (k0_pay76 (k0_pay71 (View.ld XT (Rect.unit (s := S128x2400) ![0, 1440] S128x160.size inbF)) (View.ld XT (Rect.unit (s := S128x2400) ![0, 1424] S128x16.size inbT)))) (k0_pay77 W)) x
      = predBlk XT W ((Rect.unit (s := S128x2400) ![0, 1440] S128x160.size inbF).emb x) := by
  obtain ⟨p, j, rfl⟩ : ∃ (p : Fin 128) (j : Fin 160), x = ix2 p j := ⟨x 0, x 1, eq_ix2 x⟩
  refine (Frames.frame9 W (View.ld XT (Rect.unit (s := S128x2400) ![0, 1440] S128x160.size inbF)) (View.ld XT (Rect.unit (s := S128x2400) ![0, 1424] S128x16.size inbT)) p j).trans ?_
  refine (Cert.FrameLaw.frame_pred XT W 9 (by decide) (by decide) (View.ld XT (Rect.unit (s := S128x2400) ![0, 1424] S128x16.size inbT)) (View.ld XT (Rect.unit (s := S128x2400) ![0, 1440] S128x160.size inbF))
    (fun p k => ld_cols XT 1424 inbT p k) (fun p k => ld_cols XT 1440 inbF p k) p j).trans ?_
  exact (predBlk_emb XT W 1440 inbF p j).symm

/-- Frame 10: columns 1600 to 1759. -/
theorem piece10 (W : Vec Ideal S128x15x16 .f32) (XT : Vec Ideal S128x2400 .f32)
    (inbF : ∀ a, (![0, 1600] : Fin 2 → ℕ) a + S128x160.size a ≤ S128x2400.size a)
    (inbT : ∀ a, (![0, 1584] : Fin 2 → ℕ) a + S128x16.size a ≤ S128x2400.size a)
    (x : S128x160.Idx) :
    (k0_pay84 W (k0_pay79 (View.ld XT (Rect.unit (s := S128x2400) ![0, 1600] S128x160.size inbF)) (View.ld XT (Rect.unit (s := S128x2400) ![0, 1584] S128x16.size inbT))) (k0_pay83 W (k0_pay79 (View.ld XT (Rect.unit (s := S128x2400) ![0, 1600] S128x160.size inbF)) (View.ld XT (Rect.unit (s := S128x2400) ![0, 1584] S128x16.size inbT))) (k0_pay80 W (View.ld XT (Rect.unit (s := S128x2400) ![0, 1600] S128x160.size inbF)) (View.ld XT (Rect.unit (s := S128x2400) ![0, 1584] S128x16.size inbT))) (k0_pay81 (View.ld XT (Rect.unit (s := S128x2400) ![0, 1600] S128x160.size inbF)) (View.ld XT (Rect.unit (s := S128x2400) ![0, 1584] S128x16.size inbT))) (k0_pay82 W))) x
      = predBlk XT W ((Rect.unit (s := S128x2400) ![0, 1600] S128x160.size inbF).emb x) := by
  obtain ⟨p, j, rfl⟩ : ∃ (p : Fin 128) (j : Fin 160), x = ix2 p j := ⟨x 0, x 1, eq_ix2 x⟩
  refine (Frames.frame10 W (View.ld XT (Rect.unit (s := S128x2400) ![0, 1600] S128x160.size inbF)) (View.ld XT (Rect.unit (s := S128x2400) ![0, 1584] S128x16.size inbT)) p j).trans ?_
  refine (Cert.FrameLaw.frame_pred XT W 10 (by decide) (by decide) (View.ld XT (Rect.unit (s := S128x2400) ![0, 1584] S128x16.size inbT)) (View.ld XT (Rect.unit (s := S128x2400) ![0, 1600] S128x160.size inbF))
    (fun p k => ld_cols XT 1584 inbT p k) (fun p k => ld_cols XT 1600 inbF p k) p j).trans ?_
  exact (predBlk_emb XT W 1600 inbF p j).symm

/-- Frame 11: columns 1760 to 1919. -/
theorem piece11 (W : Vec Ideal S128x15x16 .f32) (XT : Vec Ideal S128x2400 .f32)
    (inbF : ∀ a, (![0, 1760] : Fin 2 → ℕ) a + S128x160.size a ≤ S128x2400.size a)
    (inbT : ∀ a, (![0, 1744] : Fin 2 → ℕ) a + S128x16.size a ≤ S128x2400.size a)
    (x : S128x160.Idx) :
    (k0_pay92 W (k0_pay85 (View.ld XT (Rect.unit (s := S128x2400) ![0, 1760] S128x160.size inbF)) (View.ld XT (Rect.unit (s := S128x2400) ![0, 1744] S128x16.size inbT))) (k0_pay89 W (k0_pay85 (View.ld XT (Rect.unit (s := S128x2400) ![0, 1760] S128x160.size inbF)) (View.ld XT (Rect.unit (s := S128x2400) ![0, 1744] S128x16.size inbT))) (k0_pay86 W (View.ld XT (Rect.unit (s := S128x2400) ![0, 1760] S128x160.size inbF)) (View.ld XT (Rect.unit (s := S128x2400) ![0, 1744] S128x16.size inbT))) (k0_pay87 (View.ld XT (Rect.unit (s := S128x2400) ![0, 1760] S128x160.size inbF)) (View.ld XT (Rect.unit (s := S128x2400) ![0, 1744] S128x16.size inbT))) (k0_pay88 W)) (k0_pay90 (k0_pay85 (View.ld XT (Rect.unit (s := S128x2400) ![0, 1760] S128x160.size inbF)) (View.ld XT (Rect.unit (s := S128x2400) ![0, 1744] S128x16.size inbT)))) (k0_pay91 W)) x
      = predBlk XT W ((Rect.unit (s := S128x2400) ![0, 1760] S128x160.size inbF).emb x) := by
  obtain ⟨p, j, rfl⟩ : ∃ (p : Fin 128) (j : Fin 160), x = ix2 p j := ⟨x 0, x 1, eq_ix2 x⟩
  refine (Frames.frame11 W (View.ld XT (Rect.unit (s := S128x2400) ![0, 1760] S128x160.size inbF)) (View.ld XT (Rect.unit (s := S128x2400) ![0, 1744] S128x16.size inbT)) p j).trans ?_
  refine (Cert.FrameLaw.frame_pred XT W 11 (by decide) (by decide) (View.ld XT (Rect.unit (s := S128x2400) ![0, 1744] S128x16.size inbT)) (View.ld XT (Rect.unit (s := S128x2400) ![0, 1760] S128x160.size inbF))
    (fun p k => ld_cols XT 1744 inbT p k) (fun p k => ld_cols XT 1760 inbF p k) p j).trans ?_
  exact (predBlk_emb XT W 1760 inbF p j).symm

/-- Frame 12: columns 1920 to 2079. -/
theorem piece12 (W : Vec Ideal S128x15x16 .f32) (XT : Vec Ideal S128x2400 .f32)
    (inbF : ∀ a, (![0, 1920] : Fin 2 → ℕ) a + S128x160.size a ≤ S128x2400.size a)
    (inbT : ∀ a, (![0, 1904] : Fin 2 → ℕ) a + S128x16.size a ≤ S128x2400.size a)
    (x : S128x160.Idx) :
    (k0_pay99 W (k0_pay93 (View.ld XT (Rect.unit (s := S128x2400) ![0, 1920] S128x160.size inbF)) (View.ld XT (Rect.unit (s := S128x2400) ![0, 1904] S128x16.size inbT))) (k0_pay98 W (k0_pay93 (View.ld XT (Rect.unit (s := S128x2400) ![0, 1920] S128x160.size inbF)) (View.ld XT (Rect.unit (s := S128x2400) ![0, 1904] S128x16.size inbT))) (k0_pay95 W (k0_pay93 (View.ld XT (Rect.unit (s := S128x2400) ![0, 1920] S128x160.size inbF)) (View.ld XT (Rect.unit (s := S128x2400) ![0, 1904] S128x16.size inbT))) k0_pay94) (k0_pay96 (k0_pay93 (View.ld XT (Rect.unit (s := S128x2400) ![0, 1920] S128x160.size inbF)) (View.ld XT (Rect.unit (s := S128x2400) ![0, 1904] S128x16.size inbT)))) (k0_pay97 W))) x
      = predBlk XT W ((Rect.unit (s := S128x2400) ![0, 1920] S128x160.size inbF).emb x) := by
  obtain ⟨p, j, rfl⟩ : ∃ (p : Fin 128) (j : Fin 160), x = ix2 p j := ⟨x 0, x 1, eq_ix2 x⟩
  refine (Frames.frame12 W (View.ld XT (Rect.unit (s := S128x2400) ![0, 1920] S128x160.size inbF)) (View.ld XT (Rect.unit (s := S128x2400) ![0, 1904] S128x16.size inbT)) p j).trans ?_
  refine (Cert.FrameLaw.frame_pred XT W 12 (by decide) (by decide) (View.ld XT (Rect.unit (s := S128x2400) ![0, 1904] S128x16.size inbT)) (View.ld XT (Rect.unit (s := S128x2400) ![0, 1920] S128x160.size inbF))
    (fun p k => ld_cols XT 1904 inbT p k) (fun p k => ld_cols XT 1920 inbF p k) p j).trans ?_
  exact (predBlk_emb XT W 1920 inbF p j).symm

/-- Frame 13: columns 2080 to 2239. -/
theorem piece13 (W : Vec Ideal S128x15x16 .f32) (XT : Vec Ideal S128x2400 .f32)
    (inbF : ∀ a, (![0, 2080] : Fin 2 → ℕ) a + S128x160.size a ≤ S128x2400.size a)
    (inbT : ∀ a, (![0, 2064] : Fin 2 → ℕ) a + S128x16.size a ≤ S128x2400.size a)
    (x : S128x160.Idx) :
    (k0_pay107 W (k0_pay100 (View.ld XT (Rect.unit (s := S128x2400) ![0, 2080] S128x160.size inbF)) (View.ld XT (Rect.unit (s := S128x2400) ![0, 2064] S128x16.size inbT))) (k0_pay104 W (k0_pay100 (View.ld XT (Rect.unit (s := S128x2400) ![0, 2080] S128x160.size inbF)) (View.ld XT (Rect.unit (s := S128x2400) ![0, 2064] S128x16.size inbT))) (k0_pay101 W (View.ld XT (Rect.unit (s := S128x2400) ![0, 2080] S128x160.size inbF)) (View.ld XT (Rect.unit (s := S128x2400) ![0, 2064] S128x16.size inbT))) (k0_pay102 (View.ld XT (Rect.unit (s := S128x2400) ![0, 2080] S128x160.size inbF)) (View.ld XT (Rect.unit (s := S128x2400) ![0, 2064] S128x16.size inbT))) (k0_pay103 W)) (k0_pay105 (k0_pay100 (View.ld XT (Rect.unit (s := S128x2400) ![0, 2080] S128x160.size inbF)) (View.ld XT (Rect.unit (s := S128x2400) ![0, 2064] S128x16.size inbT)))) (k0_pay106 W)) x
      = predBlk XT W ((Rect.unit (s := S128x2400) ![0, 2080] S128x160.size inbF).emb x) := by
  obtain ⟨p, j, rfl⟩ : ∃ (p : Fin 128) (j : Fin 160), x = ix2 p j := ⟨x 0, x 1, eq_ix2 x⟩
  refine (Frames.frame13 W (View.ld XT (Rect.unit (s := S128x2400) ![0, 2080] S128x160.size inbF)) (View.ld XT (Rect.unit (s := S128x2400) ![0, 2064] S128x16.size inbT)) p j).trans ?_
  refine (Cert.FrameLaw.frame_pred XT W 13 (by decide) (by decide) (View.ld XT (Rect.unit (s := S128x2400) ![0, 2064] S128x16.size inbT)) (View.ld XT (Rect.unit (s := S128x2400) ![0, 2080] S128x160.size inbF))
    (fun p k => ld_cols XT 2064 inbT p k) (fun p k => ld_cols XT 2080 inbF p k) p j).trans ?_
  exact (predBlk_emb XT W 2080 inbF p j).symm

/-- Frame 14: columns 2240 to 2399. -/
theorem piece14 (W : Vec Ideal S128x15x16 .f32) (XT : Vec Ideal S128x2400 .f32)
    (inbF : ∀ a, (![0, 2240] : Fin 2 → ℕ) a + S128x160.size a ≤ S128x2400.size a)
    (inbT : ∀ a, (![0, 2224] : Fin 2 → ℕ) a + S128x16.size a ≤ S128x2400.size a)
    (x : S128x160.Idx) :
    (k0_pay114 (k0_pay113 W (k0_pay108 (View.ld XT (Rect.unit (s := S128x2400) ![0, 2240] S128x160.size inbF)) (View.ld XT (Rect.unit (s := S128x2400) ![0, 2224] S128x16.size inbT))) (k0_pay110 W (k0_pay108 (View.ld XT (Rect.unit (s := S128x2400) ![0, 2240] S128x160.size inbF)) (View.ld XT (Rect.unit (s := S128x2400) ![0, 2224] S128x16.size inbT))) (k0_pay109 W (View.ld XT (Rect.unit (s := S128x2400) ![0, 2240] S128x160.size inbF)) (View.ld XT (Rect.unit (s := S128x2400) ![0, 2224] S128x16.size inbT)))) (k0_pay111 (k0_pay108 (View.ld XT (Rect.unit (s := S128x2400) ![0, 2240] S128x160.size inbF)) (View.ld XT (Rect.unit (s := S128x2400) ![0, 2224] S128x16.size inbT)))) (k0_pay112 W))) x
      = predBlk XT W ((Rect.unit (s := S128x2400) ![0, 2240] S128x160.size inbF).emb x) := by
  obtain ⟨p, j, rfl⟩ : ∃ (p : Fin 128) (j : Fin 160), x = ix2 p j := ⟨x 0, x 1, eq_ix2 x⟩
  refine (Frames.frame14 W (View.ld XT (Rect.unit (s := S128x2400) ![0, 2240] S128x160.size inbF)) (View.ld XT (Rect.unit (s := S128x2400) ![0, 2224] S128x16.size inbT)) p j).trans ?_
  refine (Cert.FrameLaw.frame_pred XT W 14 (by decide) (by decide) (View.ld XT (Rect.unit (s := S128x2400) ![0, 2224] S128x16.size inbT)) (View.ld XT (Rect.unit (s := S128x2400) ![0, 2240] S128x160.size inbF))
    (fun p k => ld_cols XT 2224 inbT p k) (fun p k => ld_cols XT 2240 inbF p k) p j).trans ?_
  exact (predBlk_emb XT W 2240 inbF p j).symm

end Cert.KernelIdeal.Pieces

end
-- ==== Proof.PointOps.lean ====
/-
  The two pointwise stages of the kernel, read at a sample.

  The first payload decodes every sample of the block: with `u = s - 128` it is `(sign u · c₁) · (exp (|u| · c₂) - 1)`, the sign
  spelled as a selection (`u` itself at zero, else ±1 by the order), which on the extended reals is the sign function.  The last
  payload encodes every prediction and clips it to `[0, 255]`.  Both are `Spec.decode` / `Spec.encode` of the one sample.
-/
import proofs.«118022_j79336635892364_2_alg».proof.Proof.Gen.KernelIdeal.Skeleton
import proofs.«118022_j79336635892364_2_alg».proof.Proof.Spec
import Idealize.ShloMosaic.Lib.Pipeline.Value
import Idealize.ShloMosaic.PureOps.Ideal.Laws

set_option maxRecDepth 16384

noncomputable section

namespace Cert.KernelIdeal.PointOps

open Idealize.ShloMosaic Cert.KernelIdeal Cert.KernelIdeal.Gen

/-- The decoded block at a sample. -/
theorem decode_apply (x0 : Vec Ideal S128x2400 .f32) (y : S128x2400.Idx) :
    k0_pay2 x0 y = Cert.Spec.decode (x0 y) := by
  simp only [k0_pay2, shapeCast_self]
  unfold Cert.Spec.decode
  rw [← Ideal.jnp_sign_eq_sign_f32 (x0 y - Cert.Spec.lit 0x43000000#32)]
  rfl

/-- The encoded block at a sample, from the block of predictions `P`. -/
theorem encode_apply (P : Vec Ideal S128x2400 .f32) (y : S128x2400.Idx) :
    k0_pay1 (k0_pay115 P) (k0_pay116 P) y = Cert.Spec.encode (P y) := by
  simp only [k0_pay1, k0_pay115, k0_pay116]
  unfold Cert.Spec.encode
  rw [← Ideal.jnp_sign_eq_sign_f32 (P y)]
  rfl

end Cert.KernelIdeal.PointOps

end
-- ==== Proof.LibWholeStoreLoad.lean ====
/-
  A load, through ANY rectangle, of a buffer into which ONE store through the whole block was made reads the stored
  value at the rectangle's indices — an accumulator stored whole and read back through one of its columns. Any
  shape, element type and view.
-/
import Idealize.ShloMosaic.Lib.Pipeline.Value

noncomputable section

namespace Cert.LibWholeStoreLoad

open Idealize.ShloMosaic

/-- A load, through any rectangle, of what ONE store through the whole block left reads the payload there. -/
theorem readCov_whole_piece {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

end Cert.LibWholeStoreLoad

end
-- ==== Proof.BodyValue.lean ====
import proofs.«118022_j79336635892364_2_alg».proof.Proof.Gen.KernelIdeal.Frame
import proofs.«118022_j79336635892364_2_alg».proof.Proof.Pieces
import proofs.«118022_j79336635892364_2_alg».proof.Proof.PointOps
import proofs.«118022_j79336635892364_2_alg».proof.Proof.LibWholeStoreLoad

set_option maxRecDepth 16384

noncomputable section

namespace Cert.KernelIdeal.BodyValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Pieces

/-
  What the kernel's body leaves in its output block: `blockOut`, row by row the function `Spec.outRow` of the block of samples
  and the block of weights.

  The body stores the decoded block whole into its first scratch buffer and reads it back through thirty rectangles (each
  frame's 160 columns and the 16 before them): each read is the decoded block at the rectangle's entries.  It stores the fifteen
  frames of predictions side by side into its second scratch buffer; each is a block of the ONE function `Pieces.predBlk`, and
  together they tile the buffer, so the buffer read back whole is that function.  The output is its encoding, sample by sample.
-/

/-- One block of outputs from a block of samples and a block of weights: row by row, `Spec.outRow`. -/
def blockOut (x0 : Vec Ideal S128x2400 .f32) (x1 : Vec Ideal S128x15x16 .f32) (y : S128x2400.Idx) : EReal :=
  Cert.Spec.outRow (fun t => x0 (ix2 (y 0) t)) (fun g k => x1 (ix3 (y 0) g k)) (y 1)

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load through the whole rectangle of a whole buffer holding `x` reads `x`. -/
theorem read_whole2 {m : Memref sig .tc .vmem S128x2400 .f32} (h : m.IsWhole) (x : Vec Ideal S128x2400 .f32)
    (inb : ∀ a, (![0, 0] : Fin 2 → ℕ) a + S128x2400.size a ≤ S128x2400.size a) :
    View.readAt (Elt Ideal) m.view (Rect.unit (s := S128x2400) ![0, 0] S128x2400.size inb).toLoadRect (h.unread x) = x := by
  rw [View.readAt_eq_ld, h.read_unread, View.ld_unit_zero hz2]

theorem read_whole3 {m : Memref sig .tc .vmem S128x15x16 .f32} (h : m.IsWhole) (x : Vec Ideal S128x15x16 .f32)
    (inb : ∀ a, (![0, 0, 0] : Fin 3 → ℕ) a + S128x15x16.size a ≤ S128x15x16.size a) :
    View.readAt (Elt Ideal) m.view (Rect.unit (s := S128x15x16) ![0, 0, 0] S128x15x16.size inb).toLoadRect (h.unread x) = x := by
  rw [View.readAt_eq_ld, h.read_unread, View.ld_unit_zero hz3]

/-- Each of the fifteen stored frames is the block prediction `predBlk` of the decoded block and the weights, read through
    the frame's rectangle. -/
theorem pieces_agree (c : Dev nD) (arg1 : Memref sig .tc .vmem S128x2400 .f32) (harg1 : arg1.IsWhole) (arg2 : Memref sig .tc .vmem S128x15x16 .f32) (harg2 : arg2.IsWhole) (arg4 : Memref sig .tc .vmem S128x2400 .f32)
    (x0 : Vec Ideal S128x2400 .f32) (x1 : Vec Ideal S128x15x16 .f32) :
    ∀ pc ∈ kernelRun0_A.sl.HS1_15 (F := Ideal) c arg1 harg1 arg2 harg2 arg4 x0 x1,
      ∀ x : pc.1.shape.Idx, pc.2 x = predBlk (k0_pay2 x0) x1 (pc.1.emb x) := by
  intro pc hpc
  unfold kernelRun0_A.sl.HS1_15 at hpc
  simp only [List.mem_cons, List.not_mem_nil, or_false] at hpc
  rcases hpc with rfl | rfl | rfl | rfl | rfl | rfl | rfl | rfl | rfl | rfl | rfl | rfl | rfl | rfl | rfl
  · intro x
    sl_unfold_run_names
    simp only [Cert.LibWholeStoreLoad.readCov_whole_piece (S := S128x2400) _ hz2]
    rw [read_whole3 harg2 x1, read_whole2 harg1 x0]
    exact Pieces.piece14 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece13 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece12 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece11 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece10 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece9 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece8 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece7 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece6 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece5 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece4 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece3 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece2 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece1 x1 (k0_pay2 x0) _ _ x
  · intro x
    sl_unfold_run_names
    simp only [Cert.LibWholeStoreLoad.readCov_whole_piece (S := S128x2400) _ hz2]
    rw [read_whole3 harg2 x1, read_whole2 harg1 x0]
    exact Pieces.piece0 x1 (k0_pay2 x0) _ x

/-- The body's output block. -/
theorem body_eq (c : Dev nD) (i : grid0.Coords) (arg1 : Memref sig .tc .vmem S128x2400 .f32) (harg1 : arg1.IsWhole) (arg2 : Memref sig .tc .vmem S128x15x16 .f32) (harg2 : arg2.IsWhole) (arg3 : Memref sig .tc .vmem S128x2400 .f32) (harg3 : arg3.IsWhole) (arg4 : Memref sig .tc .vmem S128x2400 .f32) (harg4 : arg4.IsWhole) (arg5 : Memref sig .tc .vmem S128x2400 .f32) (harg5 : arg5.IsWhole)
    (x0 : Vec Ideal S128x2400 .f32) (x1 : Vec Ideal S128x15x16 .f32) :
    out0_A_2 (F := Ideal) c i arg1 harg1 arg2 harg2 arg3 harg3 arg4 harg4 arg5 harg5 x0 x1 = blockOut x0 x1 := by
  unfold out0_A_2
  rw [View.read_writes_eq_canon _ _ _ (cover0_A_2 c i arg1 harg1 arg2 harg2 arg3 harg3 arg4 harg4 arg5 harg5 x0 x1)]
  unfold kernelRun0_A
  dsimp only
  rw [View.canon_unit_zero hz2]
  unfold kernelRun0_A.sl.r_95 kernelRun0_A.sl.r_96
  funext y
  rw [PointOps.encode_apply]
  unfold kernelRun0_A.sl.v2082
  rw [View.readCov_eq_canon']
  have hidx : (Rect.unit (s := S128x2400) ![0, 0] S128x2400.size inb_S128x2400_S128x2400_0_0).idx y = y := by
    funext a
    refine Fin.ext ?_
    have h0 := congrFun hz2 a
    show (![0, 0] : Fin 2 → ℕ) a + 1 * (y a).val = (y a).val
    rw [h0]; omega
  show Cert.Spec.encode (View.canon (kernelRun0_A.sl.HS1_15 c arg1 harg1 arg2 harg2 arg4 x0 x1)
    ((Rect.unit (s := S128x2400) ![0, 0] S128x2400.size inb_S128x2400_S128x2400_0_0).idx y)) = _
  rw [hidx, View.canon_apply_of_pieces (predBlk (k0_pay2 x0) x1) _ (pieces_agree c arg1 harg1 arg2 harg2 arg4 x0 x1) y
    (View.cover_of_tiledL (kernelRun0_A.sl.HS1_15 c arg1 harg1 arg2 harg2 arg4 x0 x1) S128x160.size (by sl_kernel_rfl) y)]
  unfold blockOut Cert.Spec.outRow predBlk
  simp only [PointOps.decode_apply]

end Cert.KernelIdeal.BodyValue

end
-- ==== Proof.KernelValue.lean ====
/-
  The kernel's result as one function of its two argument arrays.

  Grid point `t` works on rows `128 t .. 128 t + 127`: it reads those rows of the signal (all 2400 columns) and of the weights
  (all 15 × 16 of them) and writes those rows of the result.  What it writes is `blockOut` of what it read — row by row
  `Spec.outRow` — and a row of a block is the same row of the array, so point `t`'s block is block `t` of ONE function
  `rowsOut` of the whole arrays.  The sixteen blocks tile the 2048 rows, so the result array ends at `rowsOut`.  Before the
  region the signal `[2048, 2400, 1]` is reshaped to `[2048, 2400]`, after it the result is given back its unit axis: entry
  `(b, t, 0)` of the program's result is `Spec.outRow` of row `b` of the arguments at position `t`.
-/
import proofs.«118022_j79336635892364_2_alg».proof.Proof.BodyValue
import Idealize.ShloMosaic.Lib.Pipeline.Value
import Idealize.ShloMosaic.Lib.StableHlo.Run

set_option maxRecDepth 16384

noncomputable section

namespace Cert.KernelIdeal.KernelValue

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.BodyValue

variable (m : (ℓ : Loc nD τ sig) → Buf (Elt Ideal) ℓ) (ρ : Dev nD → PrngReg)

/-- The result rows from the signal rows and the weight rows: `Spec.outRow`, row by row. -/
def rowsOut (a0 : S2048x2400.Idx → EReal) (a1 : S2048x15x16.Idx → EReal) (i : S2048x2400.Idx) : EReal :=
  Cert.Spec.outRow (fun t => a0 (ix2 (i 0) t)) (fun g k => a1 (ix3 (i 0) g k)) (i 1)

/-- The index maps, decided over the sixteen grid points: the three windows move together down the rows, and stay at
    zero on every other axis. -/
theorem idx_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0
    ∧ win0_1.index t (2 : Fin 3) = 0
    ∧ win0_2.index t (1 : Fin 2) = 0
    ∧ win0_2.index t (0 : Fin 2) ≤ 15 :=
  (by decide +kernel : ∀ t : Fin grid0.N, _)

/-- Every block of 128 rows is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- WHAT POINT `t` WRITES BACK is block `t` of `rowsOut` of the arrays as the region finds them: a row of the point's
    blocks is the same row of the arrays. -/
theorem flushed_eq (c : Dev nD) (t : Fin cfg0.N) :
    (dats m 0 c).flushed 2 t = ((cfg0.win 2).blk t).view.read (Elt Ideal) (rowsOut (V m c main_v0) (V m c main_arg1)) := by
  show (cfg0.win 2).cut (grid0.coords t) ((dats m 0 c).after 2 t) = _
  rw [after0_2]
  unfold outsAt0
  rw [body_eq]
  obtain ⟨e0, e1, e2, e3, e4, e5, e6⟩ := idx_facts t
  funext j
  show blockOut (iblk m c 0 t) (iblk m c 1 t) j = rowsOut (V m c main_v0) (V m c main_arg1) (((cfg0.win 2).blk t).view.emb j)
  unfold blockOut rowsOut
  have hj0 : (j 0).val < 128 := (j 0).isLt
  have hr : ∀ t' : Fin 2400, ((cfg0.win 0).blk t).view.emb (ix2 (j 0) t') = ix2 ((((cfg0.win 2).blk t).view.emb j) 0) t' := by
    intro t'
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 2400 + 1 * t'.val = t'.val; omega
  have hw : ∀ (g : Fin 15) (k : Fin 16), ((cfg0.win 1).blk t).view.emb (ix3 (j 0) g k) = ix3 ((((cfg0.win 2).blk t).view.emb j) 0) g k := by
    intro g k
    funext a; apply Fin.ext
    match a with
    | ⟨0, _⟩ => show win0_1.index t (0 : Fin 3) * 128 + 1 * (j 0).val = win0_2.index t (0 : Fin 2) * 128 + 1 * (j 0).val; omega
    | ⟨1, _⟩ => show win0_1.index t (1 : Fin 3) * 15 + 1 * g.val = g.val; omega
    | ⟨2, _⟩ => show win0_1.index t (2 : Fin 3) * 16 + 1 * k.val = k.val; omega
  have hq : (((cfg0.win 2).blk t).view.emb j) 1 = j 1 :=
    Fin.ext (by show win0_2.index t (1 : Fin 2) * 2400 + 1 * (j 1).val = (j 1).val; omega)
  have A : (fun t' : Fin 2400 => iblk m c 0 t (ix2 (j 0) t')) = fun t' => V m c main_v0 (ix2 ((((cfg0.win 2).blk t).view.emb j) 0) t') :=
    funext fun t' => congrArg (V m c main_v0) (hr t')
  have B : (fun (g : Fin 15) (k : Fin 16) => iblk m c 1 t (ix3 (j 0) g k)) = fun g k => V m c main_arg1 (ix3 ((((cfg0.win 2).blk t).view.emb j) 0) g k) :=
    funext fun g => funext fun k => congrArg (V m c main_arg1) (hw g k)
  refine Eq.trans (congrArg (fun f => Cert.Spec.outRow f _ _) A) ?_
  refine Eq.trans (congrArg (fun f => Cert.Spec.outRow _ f _) B) ?_
  exact congrArg (Cert.Spec.outRow _ _) hq.symm

/-- An index of the result array is in point `t`'s block iff each coordinate is in the block's range on its axis. -/
theorem mem_blk (t : Fin cfg0.N) (i : S2048x2400.Idx) :
    i ∈ ((cfg0.win 2).blk t).view.set ↔ ∀ a : Fin 2, win0_2.index t a * S128x2400.size a ≤ (i a).val
      ∧ (i a).val < win0_2.index t a * S128x2400.size a + S128x2400.size a := by
  show i ∈ ((View.whole main_v1).slice (win0_2.rect t)).set ↔ _
  rw [View.set_slice_whole, Rect.mem_set_unit]
  exact Iff.rfl

/-- Every row of the result is in some point's block: the point whose block index is the row over 128. -/
theorem cover (i : S2048x2400.Idx) :
    ∃ t : Fin cfg0.N, (cfg0.win 2).flush t = true ∧ i ∈ ((cfg0.win 2).blk t).view.set := by
  have hi0 : (i 0).val < 2048 := (i 0).isLt
  have hi1 : (i 1).val < 2400 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 2400 ≤ (i 1).val ∧ (i 1).val < win0_2.index t (1 : Fin 2) * 2400 + 2400; omega

/-- THE RESULT ARRAY after the region: `rowsOut` of the two arrays the region finds. -/
theorem final (c : Dev nD) : (dats m 0 c).arrAt 2 cfg0.N = rowsOut (V m c main_v0) (V m c main_arg1) :=
  (dats m 0 c).arrAt_eq_of_cover 2 _ (fun t _ => flushed_eq m c t) cover

/-- The signal the region finds is the argument with its unit axis dropped. -/
theorem V_v0 (c : Dev nD) : (V m c main_v0 : S2048x2400.Idx → EReal)
    = shapeCast S2048x2400 (m ((c : Thread nD τ).loc main_arg0)) shapeCasts_S2048x2400x1_S2048x2400 := by
  show StableHlo.after hostOps0 (fun b => m (c, b)) (Proc.devRef .tc main_v0) = _
  after_results
  rfl

/-- The program's result from its two arguments: entry `(b, t, 0)` is `Spec.outRow` of row `b` at position `t`. -/
def resultOf (a0 : S2048x2400x1.Idx → EReal) (a1 : S2048x15x16.Idx → EReal) (i : S2048x2400x1.Idx) : EReal :=
  Cert.Spec.outRow (fun t => a0 (ix3 (i 0) t 0)) (fun g k => a1 (ix3 (i 0) g k)) (i 1)

/-- After the region the result array is given back its unit axis: the program's result. -/
theorem tail_eq (c : Dev nD) :
    Pipeline.afterTail₀ cfgs (dats m) 0 (V0 m) [hostOps1] c main_v2
      = resultOf (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = rowsOut (V m c main_v0) (V m c main_arg1) :=
    (Pipeline.withArrays_arr spec0 launch0.win.arr_inj c _ _ 2).trans (final m c)
  rw [hA, V_v0, V_main_arg1]
  funext i
  obtain ⟨b, t, z, rfl⟩ : ∃ (b : Fin 2048) (t : Fin 2400) (z : Fin 1), i = ix3 b t z := ⟨i 0, i 1, i 2, eq_ix3 i⟩
  rw [broadcastInDim_apply _ bcast_S2048x2400_S2048x2400x1_0_1 _ (ix3 b t z) (ix2 b t) (fun a => by
    match a with
    | ⟨0, _⟩ => show b.val = if (2048 : ℕ) = 1 then 0 else b.val
                rw [if_neg (by decide)]
    | ⟨1, _⟩ => show t.val = if (2400 : ℕ) = 1 then 0 else t.val
                rw [if_neg (by decide)])]
  unfold rowsOut resultOf
  refine congrArg (fun f => Cert.Spec.outRow f _ _) (funext fun t' => ?_)
  exact shapeCast_apply _ shapeCasts_S2048x2400x1_S2048x2400 (ix2 b t') (ix3 b t' 0) (by
    rw [Shape.rowMajor_val_three, Shape.rowMajor_val_two]
    show (b.val * 2400 + t'.val) * 1 + 0 = b.val * 2400 + t'.val
    omega)

/-- The kernel's run with its result named: every weakly fair execution ends with the result at `resultOf` of the two
    arguments, and the arguments unchanged. -/
theorem run : θ_run defs (onTc (τ := τ) (main (F := Ideal))) ⟨m, fun _ => 0, ρ⟩ (fun r => ∀ c : Dev nD,
      r.2.mem ((c.tc : Thread nD τ).loc main_v2) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.KernelValue

end
-- ==== Proof.RefIndex.lean ====
/-
  The reference's window indices, and its gather read at an index.

  The reference builds the array of start indices `idx[t, k] = 16 + t - k` on 32-bit words (an iota along the
  positions, an iota along the taps, a wrapping sum and a wrapping difference), then normalises a negative index by
  adding the padded row's length 2416. For a position `t < 2400` and a tap `k < 16` the number `16 + t - k` lies
  between 1 and 2415: neither the sum nor the difference wraps, the word is not negative, so the normalisation keeps
  it, and it is already inside the range the gather clamps a start index to. The gather (offset axis 0, collapsed
  axis 1, start index map `[1]`, slices of one whole column) reads at `(b, t, k)` the operand's entry on row `b`
  at the column that start index names.
-/
import proofs.«118022_j79336635892364_2_alg».proof.Proof.Gen.ReferenceIdeal.Read
import Idealize.ShloMosaic.Lib.ValueIdx

noncomputable section

namespace Cert.RefValue

open Cert.ReferenceIdeal Cert.ReferenceIdeal.Gen Cert.ReferenceIdeal.Read Idealize.ShloMosaic Idealize.ShloMosaic.ValueIdx

variable {F : FTy → Type} [FloatOps F]

/-! ## The words -/

/-- On 32 bits, for `t < 2400` and `k < 16`, the wrapping `16 + t - k` is the word of the natural number
    `16 + t - k`: nothing wraps. -/
theorem word_idx (t k : Nat) (ht : t < 2400) (hk : k < 16) :
    16#32 + BitVec.ofNat 32 t - BitVec.ofNat 32 k = BitVec.ofNat 32 (16 + t - k) := by
  apply BitVec.eq_of_toNat_eq
  simp only [BitVec.toNat_sub, BitVec.toNat_add, BitVec.toNat_ofNat]
  omega

/-- Read as a signed integer, the word of a number below 2416 is that number. -/
theorem word_toInt (n : Nat) (hn : n < 2416) : (BitVec.ofNat 32 n).toInt = (n : Int) := by
  rw [BitVec.toInt_eq_toNat_cond]
  simp only [BitVec.toNat_ofNat]
  split <;> omega

/-- The word of a number below 2416 is not negative: the signed comparison with zero answers the bit 0. -/
theorem word_not_neg (n : Nat) (hn : n < 2416) : IntOp.cmpi .slt (BitVec.ofNat 32 n) 0#32 = 0#1 := by
  have h0 : (0#32).toInt = 0 := by decide
  have h : ¬ ((n : Int) < 0) := by omega
  simp only [IntOp.cmpi, BitVec.slt, word_toInt n hn, h0]
  rw [decide_eq_false h]
  rfl

/-! ## The start indices -/

/-- The start index at position `t`, tap `k`: the word of `16 + t - k` (the normalisation of a negative index
    leaves it alone, since it is not negative). -/
theorem v32_apply (t : Fin 2400) (k : Fin 16) (z : Fin 1) :
    val_main_v32 (F := F) (ix3 t k z) = BitVec.ofNat 32 (16 + t.val - k.val) := by
  simp only [val_main_v32_apply, val_main_v31_apply, val_main_v28_apply, val_main_v30_apply, val_main_v26_apply,
    val_main_v27_apply, val_main_v29_apply, val_main_v24_apply, val_main_v25_apply, val_main_v23_apply,
    val_main_v22_apply, val_main_v21_apply, val_main_v20_apply, val_main_v19_apply, val_main_v18_apply,
    val_main_c_apply, val_main_c_5_apply, val_main_c_6_apply]
  show Scalar.select (IntOp.cmpi .slt (16#32 + BitVec.ofNat 32 t.val - BitVec.ofNat 32 k.val) 0#32)
      (16#32 + BitVec.ofNat 32 t.val - BitVec.ofNat 32 k.val + 2416#32)
      (16#32 + BitVec.ofNat 32 t.val - BitVec.ofNat 32 k.val) = _
  rw [word_idx t.val k.val t.isLt k.isLt, word_not_neg _ (by omega), select_zero]

/-! ## The gather -/

/-- The reference's gather at `(b, t, k)`, for any operand and any start indices: the operand's entry on row `b`
    at the column `r` the start index `idx[t, k, 0]` names, read as a signed integer and clamped into
    `[0, 2415]`. (Row: axis 0 is the one offset axis, not in the start index map, so its start is 0 and the result's
    coordinate 0 is the offset. Column: axis 1 is collapsed and in the start index map, so its offset is 0 and its
    start is the clamped index. There is no batching axis.) -/
theorem gather_apply {α : Type} (x : S2048x2416.Idx → α) (idx : IVec S2400x16x1 32) (b : Fin 2048) (t : Fin 2400)
    (k : Fin 16) (r : Fin 2416) (hr : r.val = min (idx (ix3 t k 0)).toInt.toNat 2415) :
    Host.gather gather_S2048x2416_S2400x16x1_S2048x2400x16_0_1_n_n_1_2_20481 x idx (ix3 b t k) = x (ix2 b r) := by
  unfold Host.gather
  congr 1
  funext a
  refine Fin.ext ?_
  show gather_S2048x2416_S2400x16x1_S2048x2400x16_0_1_n_n_1_2_20481.start (ix3 b t k) idx a
      + gather_S2048x2416_S2400x16x1_S2048x2400x16_0_1_n_n_1_2_20481.batchCoord (ix3 b t k) a
      + gather_S2048x2416_S2400x16x1_S2048x2400x16_0_1_n_n_1_2_20481.offCoord (ix3 b t k) a = _
  rw [GatherDims.batchCoord_eq_zero _ _ _ List.not_mem_nil, Nat.add_zero]
  match a with
  | ⟨0, _⟩ =>
    have h0 : (⟨0, by decide⟩ : Fin 2) ∉ gather_S2048x2416_S2400x16x1_S2048x2400x16_0_1_n_n_1_2_20481.startIndexMap := by decide
    have hk : (⟨0, by decide⟩ : Fin 2) ∈ gather_S2048x2416_S2400x16x1_S2048x2400x16_0_1_n_n_1_2_20481.sKept := by decide
    unfold GatherDims.start
    rw [dif_neg h0, Nat.zero_add]
    unfold GatherDims.offCoord
    rw [dif_pos hk]
    rfl
  | ⟨1, _⟩ =>
    have h1 : (⟨1, by decide⟩ : Fin 2) ∈ gather_S2048x2416_S2400x16x1_S2048x2400x16_0_1_n_n_1_2_20481.startIndexMap := by decide
    have hk : (⟨1, by decide⟩ : Fin 2) ∉ gather_S2048x2416_S2400x16x1_S2048x2400x16_0_1_n_n_1_2_20481.sKept := by decide
    rw [GatherDims.offCoord_eq_zero _ _ _ hk, Nat.add_zero]
    unfold GatherDims.start
    rw [dif_pos h1]
    have hsi : gather_S2048x2416_S2400x16x1_S2048x2400x16_0_1_n_n_1_2_20481.siIdx (ix3 b t k)
        ⟨List.idxOf (⟨1, by decide⟩ : Fin 2) gather_S2048x2416_S2400x16x1_S2048x2400x16_0_1_n_n_1_2_20481.startIndexMap, List.idxOf_lt_length_iff.2 h1⟩ = ix3 t k 0 := by
      funext c; refine Fin.ext ?_
      match c with
      | ⟨0, _⟩ => rfl
      | ⟨1, _⟩ => rfl
      | ⟨2, _⟩ => rfl
    rw [hsi]
    exact hr.symm

end Cert.RefValue

end
-- ==== Proof.RefGather.lean ====
/-
  The reference's decoder, its zero padding, and its windows.

  Every sample of the row is decoded (subtract 128, take sign and absolute value, divide by 128, scale, exponential,
  minus one, times the sign's scale); the decoded row gets sixteen zero columns in front; and the window at position
  `t`, tap `k`, reads the padded row at column `16 + t - k`: the decoded sample `k` steps before `t` when there is one
  (`k ≤ t`), one of the sixteen zeros otherwise.
-/
import proofs.«118022_j79336635892364_2_alg».proof.Proof.RefIndex
import proofs.«118022_j79336635892364_2_alg».proof.Proof.Spec

noncomputable section

namespace Cert.RefValue

open Cert.ReferenceIdeal Cert.ReferenceIdeal.Gen Cert.ReferenceIdeal.Read Idealize.ShloMosaic Idealize.ShloMosaic.ValueIdx

/-! ## The decoder -/

/-- The decoded signal at an index is `Spec.decode` of the sample there. Operation by operation the two agree
    argument for argument, but for one step: the reference divides `|u|` by 128 and multiplies by the word
    `0x40B17218`, where `Spec.decode` multiplies `|u|` by the word `0x3D317218`; `Spec.scale_law` is that law. -/
theorem v13_apply (x0 : (⟨S2048x2400x1, .f32⟩ : BufTy).Contents (Elt Ideal)) (i : S2048x2400x1.Idx) :
    val_main_v13 (F := Ideal) x0 i = Cert.Spec.decode (x0 i) := by
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply,
    val_main_cst_1_apply, val_main_cst_2_apply, val_main_cst_3_apply,
    Ideal.mulf_def, Ideal.subf_def, Ideal.hostDivf_def, Ideal.hostUnary_exp_def, Ideal.hostUnary_sign_def,
    Ideal.hostAbsf_def, Ideal.absf_def, Ideal.ofBits_def]
  rw [Cert.Spec.scale_law]
  rfl

/-! ## The padded row -/

/-- Dropping the trailing axis of size one: entry `(b, r)` of the `[2048, 2416]` array is entry `(b, r, 0)` of the
    `[2048, 2416, 1]` one (the row-major position `b · 2416 + r` splits back into `b` and `r`). -/
theorem idx17 (b : Fin 2048) (r : Fin 2416) : idx_main_v17 (ix2 b r) = ix3 b r 0 := by
  have hb := b.isLt
  have hr := r.isLt
  funext a; refine Fin.ext ?_
  match a with
  | ⟨0, _⟩ => show (b.val * 2416 + r.val) / 2416 = b.val; omega
  | ⟨1, _⟩ => show (b.val * 2416 + r.val) / 1 % 2416 = r.val; omega
  | ⟨2, _⟩ => rfl

/-- A column below 16 of the padded row lies in the first piece, the zeros. -/
theorem v16_left (x0 : (⟨S2048x2400x1, .f32⟩ : BufTy).Contents (Elt Ideal)) (b : Fin 2048) (r : Fin 2416) (z : Fin 1)
    (hr : r.val < 16) : val_main_v16 (F := Ideal) x0 (ix3 b r z) = 0 := by
  unfold val_main_v16
  rw [concatenate_pair_apply_left 1 (val_main_v15 (F := Ideal)) (val_main_v13 (F := Ideal) x0) _ (ix3 b r z) rfl
    (ix3 b (⟨r.val, hr⟩ : Fin 16) z : S2048x16x1.Idx) (fun ax => by
    match ax with
    | ⟨0, _⟩ => rfl
    | ⟨1, _⟩ => rfl
    | ⟨2, _⟩ => rfl)]
  rw [val_main_v15_apply, val_main_cst_4_apply, Ideal.ofBits_def, Ideal.ofBits_zero_f32]

/-- A column `16 + q` of the padded row lies in the second piece, the decoded signal, at position `q`. -/
theorem v16_right (x0 : (⟨S2048x2400x1, .f32⟩ : BufTy).Contents (Elt Ideal)) (b : Fin 2048) (r : Fin 2416) (z : Fin 1)
    (q : Fin 2400) (hq : r.val = 16 + q.val) :
    val_main_v16 (F := Ideal) x0 (ix3 b r z) = val_main_v13 (F := Ideal) x0 (ix3 b q z) := by
  unfold val_main_v16
  exact concatenate_pair_apply_right 1 (val_main_v15 (F := Ideal)) (val_main_v13 (F := Ideal) x0) _ (ix3 b r z) rfl rfl
    (ix3 b q z : S2048x2400x1.Idx) (fun ax hax => by
    match ax with
    | ⟨0, _⟩ => rfl
    | ⟨1, _⟩ => exact absurd rfl hax
    | ⟨2, _⟩ => rfl) (by show q.val + 16 = r.val; omega)

/-! ## The windows -/

/-- The window at position `t`, tap `k`: the decoded sample `k` steps in the past, zero before the row starts.
    The start index is `16 + t - k`, at most 2415, so the clamp keeps it; the padded row at that column is the
    decoded sample `t - k` when `k ≤ t` (the column is `16 + (t - k)`) and a zero otherwise (the column is below 16). -/
theorem v33_apply (x0 : (⟨S2048x2400x1, .f32⟩ : BufTy).Contents (Elt Ideal)) (b : Fin 2048) (t : Fin 2400) (k : Fin 16) :
    val_main_v33 (F := Ideal) x0 (ix3 b t k) = Cert.Spec.past (fun q => Cert.Spec.decode (x0 (ix3 b q 0))) t k := by
  have ht := t.isLt
  have hk := k.isLt
  unfold val_main_v33
  rw [gather_apply _ _ b t k ⟨16 + t.val - k.val, by omega⟩ (by
    rw [v32_apply, word_toInt _ (by omega)]
    show 16 + t.val - k.val = min ((16 + t.val - k.val : ℕ) : ℤ).toNat 2415
    omega)]
  rw [val_main_v17_apply, idx17]
  unfold Cert.Spec.past
  by_cases h : k.val ≤ t.val
  · rw [dif_pos h, v16_right x0 b _ 0 ⟨t.val - k.val, by omega⟩ (by show 16 + t.val - k.val = 16 + (t.val - k.val); omega),
      v13_apply]
  · rw [dif_neg h, v16_left x0 b _ 0 (by show 16 + t.val - k.val < 16; omega)]

end Cert.RefValue

end
-- ==== Proof.RefValue.lean ====
/-
  The reference program computes `Spec.outRow`, one output sample at a time.

  The per-frame taps are repeated 160 times along the positions (a broadcast to `[2048, 15, 160, 16]` and a reshape
  to `[2048, 2400, 16]`: position `t` reads frame `t / 160`); each is multiplied by its window, the sixteen
  products are summed onto the zero word and the sum is negated: the prediction. The encoder then takes sign and
  absolute value, scales, takes `log1p`, multiplies by 128, divides, multiplies by the sign, adds 128 and clips to
  `[0, 255]`: `Spec.encode`, operation for operation and argument for argument (no commutativity is used anywhere).
-/
import proofs.«118022_j79336635892364_2_alg».proof.Proof.RefGather

noncomputable section

namespace Cert.RefValue

open Cert.ReferenceIdeal Cert.ReferenceIdeal.Gen Cert.ReferenceIdeal.Read Idealize.ShloMosaic Idealize.ShloMosaic.ValueIdx

/-! ## The repeated taps -/

/-- The repeated taps at `(b, t, k)` read the taps at `(b, t / 160, k)`: the row-major position
    `(b · 2400 + t) · 16 + k` of the `[2048, 2400, 16]` array, split over `[2048, 15, 160, 16]`, has coordinates
    `b`, `t / 160`, `t % 160`, `k`, and the broadcast drops the third. -/
theorem idx35 (b : Fin 2048) (t : Fin 2400) (k : Fin 16) :
    idx_main_v34 (idx_main_v35 (ix3 b t k)) = ix3 b (Cert.Spec.frameOf t) k := by
  have hb := b.isLt
  have ht := t.isLt
  have hk := k.isLt
  funext a; refine Fin.ext ?_
  match a with
  | ⟨0, _⟩ => show ((b.val * 2400 + t.val) * 16 + k.val) / 38400 = b.val; omega
  | ⟨1, _⟩ => show ((b.val * 2400 + t.val) * 16 + k.val) / 2560 % 15 = t.val / 160; omega
  | ⟨2, _⟩ => show ((b.val * 2400 + t.val) * 16 + k.val) % 16 = k.val; omega

theorem v35_apply (x1 : (⟨S2048x15x16, .f32⟩ : BufTy).Contents (Elt Ideal)) (b : Fin 2048) (t : Fin 2400) (k : Fin 16) :
    val_main_v35 (F := Ideal) x1 (ix3 b t k) = x1 (ix3 b (Cert.Spec.frameOf t) k) := by
  rw [val_main_v35_apply, val_main_v34_apply, idx35]

/-! ## The prediction -/

/-- The sum over the taps at `(b, t)` runs over the entries `(b, t, k)`. -/
theorem idx37 (b : Fin 2048) (t : Fin 2400) (z : Fin 1) (k : Fin 16) :
    idx_main_v37 (idx_main_v38 (ix3 b t z)) k = ix3 b t k := by
  funext a; refine Fin.ext ?_
  match a with
  | ⟨0, _⟩ => rfl
  | ⟨1, _⟩ => rfl
  | ⟨2, _⟩ => rfl

/-- The prediction at `(b, t)` is `Spec.predRow` of row `b`: the reference negates `0 + Σ k, w k · z k` (the sum
    starts from the zero word), `Spec.predRow` is `0 -` the same sum (`Spec.tapSum_eq_sum`). -/
theorem v39_apply (x0 : (⟨S2048x2400x1, .f32⟩ : BufTy).Contents (Elt Ideal)) (x1 : (⟨S2048x15x16, .f32⟩ : BufTy).Contents (Elt Ideal))
    (b : Fin 2048) (t : Fin 2400) (z : Fin 1) :
    val_main_v39 (F := Ideal) x0 x1 (ix3 b t z)
      = Cert.Spec.predRow (fun q => Cert.Spec.decode (x0 (ix3 b q 0))) (fun f k => x1 (ix3 b f k)) t := by
  rw [val_main_v39_apply, val_main_v38_apply, val_main_v37_apply, val_main_cst_7_apply]
  simp only [idx37, val_main_v36_apply, v35_apply, v33_apply, Ideal.mulf_def, Ideal.ofBits_def, Ideal.ofBits_zero_f32,
    Ideal.hostNegf_def, Ideal.negf_def]
  unfold Cert.Spec.predRow
  rw [Cert.Spec.tapSum_eq_sum, zero_add, zero_sub]

/-! ## The encoder -/

/-- The output at an index is `Spec.encode` of the prediction there: the same operations on the same words, every
    argument in the same place. -/
theorem v52_encode (x0 : (⟨S2048x2400x1, .f32⟩ : BufTy).Contents (Elt Ideal)) (x1 : (⟨S2048x15x16, .f32⟩ : BufTy).Contents (Elt Ideal))
    (i : S2048x2400x1.Idx) :
    val_main_v52 (F := Ideal) x0 x1 i = Cert.Spec.encode (val_main_v39 (F := Ideal) x0 x1 i) := by
  simp only [val_main_v52_apply, val_main_call0_v4_apply, val_main_call0_v3_apply, val_main_cst_13_apply,
    val_main_call0_v2_apply, val_main_call0_v1_apply, val_main_call0_v0_apply, val_main_cst_12_apply,
    val_main_v51_apply, val_main_v50_apply, val_main_cst_11_apply, val_main_v49_apply, val_main_v48_apply,
    val_main_v47_apply, val_main_cst_10_apply, val_main_v46_apply, val_main_v45_apply, val_main_cst_9_apply,
    val_main_v44_apply, val_main_v43_apply, val_main_v42_apply, val_main_cst_8_apply, val_main_v41_apply,
    val_main_v40_apply,
    Ideal.minimumf_def, Ideal.maximumf_def, Ideal.addf_def, Ideal.mulf_def, Ideal.hostDivf_def,
    Ideal.hostUnary_log1p_def, Ideal.hostUnary_sign_def, Ideal.hostAbsf_def, Ideal.absf_def, Ideal.ofBits_def]
  rfl

/-! ## The whole program -/

/-- THE REFERENCE'S VALUE: its output at `(b, t, 0)` is `Spec.outRow` of row `b`'s samples and taps at position `t`. -/
theorem ref_eq (x0 : (⟨S2048x2400x1, .f32⟩ : BufTy).Contents (Elt Ideal)) (x1 : (⟨S2048x15x16, .f32⟩ : BufTy).Contents (Elt Ideal))
    (i : S2048x2400x1.Idx) :
    Cert.ReferenceIdeal.Read.val_main_v52 (F := Ideal) x0 x1 i
      = Cert.Spec.outRow (fun t => x0 (ix3 (i 0) t 0)) (fun f k => x1 (ix3 (i 0) f k)) (i 1) := by
  have hi : i = (ix3 (i 0) (i 1) (i 2) : S2048x2400x1.Idx) := by
    funext a
    match a with
    | ⟨0, _⟩ => rfl
    | ⟨1, _⟩ => rfl
    | ⟨2, _⟩ => rfl
  have h := (congrArg (val_main_v39 (F := Ideal) x0 x1) hi).trans (v39_apply x0 x1 (i 0) (i 1) (i 2))
  rw [v52_encode, h]
  rfl

end Cert.RefValue

end
-- ==== Proof.lean ====
/-
  The kernel and its reference compute one function of the signal and the predictor weights.

  Both decode every mu-law sample of a row (`Spec.decode`), predict each position from the sixteen decoded samples before it
  with the weights of the position's frame of 160 (`Spec.predRow`: minus the tap sum, zero before the row's start), and
  encode the prediction (`Spec.encode`): entry `(b, t, 0)` of either result is `Spec.outRow` of row `b` of the two arguments
  at position `t`.  The kernel gets there block by block: sixteen blocks of 128 rows, each decoded into a scratch buffer, each
  of its fifteen frames predicted from two column blocks of that buffer and written beside the others into a second
  scratch buffer, which is read back whole and encoded (Proof/KernelValue.lean, over Proof/BodyValue.lean).  The reference gets
  there with a gather along a zero-padded copy of the decoded signal and a sum over the taps (Proof/RefValue.lean).  Two laws join
  the sides: adding sixteen products one after the other onto zero is their sum, and multiplying by the kernel's one
  folded constant is dividing by 128 and multiplying by the reference's constant, which holds on every extended real; so
  the precondition is not used.  The two sign computations the kernel spells through the sign bit are the order's sign.
-/
import proofs.«118022_j79336635892364_2_alg».proof.Defs
import proofs.«118022_j79336635892364_2_alg».proof.Proof.Gen.Kernel
import proofs.«118022_j79336635892364_2_alg».proof.Proof.Gen.Kernel.Frame
import proofs.«118022_j79336635892364_2_alg».proof.Proof.Gen.KernelIdeal
import proofs.«118022_j79336635892364_2_alg».proof.Proof.Gen.KernelIdeal.Frame
import proofs.«118022_j79336635892364_2_alg».proof.Proof.Gen.ReferenceIdeal
import proofs.«118022_j79336635892364_2_alg».proof.Proof.Gen.ReferenceIdeal.Run
import proofs.«118022_j79336635892364_2_alg».proof.Proof.Gen.ReferenceIdeal.Read
import proofs.«118022_j79336635892364_2_alg».proof.Proof.Gen.Pre_finite_inputs
import proofs.«118022_j79336635892364_2_alg».proof.Proof.KernelValue
import proofs.«118022_j79336635892364_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a sequence of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two places where the kernel reads a float's sign through its word: on the extended reals "negative" is the order's. -/
theorem preserves : Cert.preserves_Kernel_KernelIdeal :=
  ⟨IdealRules.sign_bit.statement Cert.KernelIdeal.S128x2400 .f32, IdealRules.sign_bit.statement Cert.KernelIdeal.S128x2400 .f32⟩

/-- Both runs end with the result at `Spec.outRow`, row by row, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2]
  funext i
  exact Cert.RefValue.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
